-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x48 : Shape := ⟨2, ![64, 48]⟩
abbrev S48 : Shape := ⟨1, ![48]⟩
abbrev S48x32 : Shape := ⟨2, ![48, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x48 : S_.BroadcastsInDim S64x48 (![] : Fin 0 → Fin S64x48.rank)
  reducesTo_S64x48_S_d0_1 : S64x48.ReducesTo [0, 1] S_
  bcast_S_S48 : S_.BroadcastsInDim S48 (![] : Fin 0 → Fin S48.rank)
  reducesTo_S48_S_d0 : S48.ReducesTo [0] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S48x32 1) : IVec S_ 1 :=
  let main_c_5 : IVec S_ 1 := constantI S_ 1 1#1
  let main_v17 : IVec S_ 1 := (fun x v => Host.reduce IntOp.andi x v reducesTo_S48x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x48 .f32) (main_arg3 : FVec F S48 .f32) (main_arg4 : FVec F S48x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x48 .f32 := Host.absf main_arg2
  let main_cst_0 : FVec F S_ .f32 := constant S_ .f32 0x7F800000#32
  let main_v5 : FVec F S64x48 .f32 := broadcastInDim S64x48 ![] bcast_S_S64x48 main_cst_0
  let main_v6 : IVec S64x48 1 := cmpf .olt main_v4 main_v5
  let main_c_1 : IVec S_ 1 := constantI S_ 1 1#1
  let main_v7 : IVec S_ 1 := (fun x v => Host.reduce IntOp.andi x v reducesTo_S64x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x32 .f32 := Host.absf main_arg4
  let main_cst_4 : FVec F S_ .f32 := constant S_ .f32 0x7F800000#32
  let main_v15 : FVec F S48x32 .f32 := broadcastInDim S48x32 ![] bcast_S_S48x32 main_cst_4
  let main_v16 : IVec S48x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x48 : Shape := ⟨2, ![64, 48]⟩
abbrev S48 : Shape := ⟨1, ![48]⟩
abbrev S48x32 : Shape := ⟨2, ![48, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x48 : Shape := ⟨2, ![100000, 48]⟩
abbrev S10000x64 : Shape := ⟨2, ![10000, 64]⟩
abbrev S10000x1 : Shape := ⟨2, ![10000, 1]⟩
abbrev S10000x48 : Shape := ⟨2, ![10000, 48]⟩
abbrev S1700000x48 : Shape := ⟨2, ![1700000, 48]⟩
abbrev S1x48 : Shape := ⟨2, ![1, 48]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 65
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x48, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x48, .f32⟩
  | .hbm, ⟨41, _⟩ => ⟨S_, .f32⟩
  | .hbm, ⟨42, _⟩ => ⟨S100000x48, .f32⟩
  | .hbm, ⟨43, _⟩ => ⟨S1700000x1, .i32⟩
  | .hbm, ⟨44, _⟩ => ⟨S100000x48, .f32⟩
  | .hbm, ⟨45, _⟩ => ⟨S1x48, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S100000x32, .f32⟩
  | .hbm, ⟨61, _⟩ => ⟨S100000x32, .f32⟩
  | .hbm, ⟨62, _⟩ => ⟨S1x32, .f32⟩
  | .hbm, ⟨63, _⟩ => ⟨S100000x32, .f32⟩
  | .hbm, ⟨64, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x48, .f32⟩
  | .local _ .vmem, ⟨3, _⟩ => ⟨S10000x1, .f32⟩
  | .local _ .vmem, ⟨4, _⟩ => ⟨S10000x1, .f32⟩
  | .local _ .vmem, ⟨5, _⟩ => ⟨S10000x48, .f32⟩
  | .local _ .vmem, ⟨6, _⟩ => ⟨S10000x48, .f32⟩
  | .local _ .vmem, ⟨7, _⟩ => ⟨S10000x48, .f32⟩
  | .local _ .vmem, ⟨8, _⟩ => ⟨S10000x48, .f32⟩
  | .local _ .vmem, ⟨9, _⟩ => ⟨S10000x1, .f32⟩
  | .local _ .vmem, ⟨10, _⟩ => ⟨S10000x1, .f32⟩
  | .local _ .vmem, ⟨11, _⟩ => ⟨S1x48, .f32⟩
  | .local _ .vmem, ⟨12, _⟩ => ⟨S48x32, .f32⟩
  | .local _ .vmem, ⟨13, _⟩ => ⟨S10000x32, .f32⟩
  | .local _ .vmem, ⟨14, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S48x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x48_S64x48_0_0 : ∀ a, (![0, 0] : Fin 2 → Nat) a + S64x48.size a ≤ S64x48.size a
  h_S64x48 : 0 < S64x48.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x48 : S10000x1.Broadcasts S10000x48
  inb_S10000x48_S10000x48_0_0 : ∀ a, (![0, 0] : Fin 2 → Nat) a + S10000x48.size a ≤ S10000x48.size a
  h_S10000x48 : 0 < S10000x48.numel
  bcast_S_S100000x48 : S_.BroadcastsInDim S100000x48 (![] : Fin 0 → Fin S100000x48.rank)
  shapeCasts_S48_S1x48 : S48.ShapeCasts S1x48
  shapeCasts_S10000x48_S10000x48 : S10000x48.ShapeCasts S10000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S10000x48 : S1x48.Broadcasts S10000x48
  inb_S48x32_S48x32_0_0 : ∀ a, (![0, 0] : Fin 2 → Nat) a + S48x32.size a ≤ S48x32.size a
  h_S48x32 : 0 < S48x32.numel
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S10000x64_S64x48_S10000x48_1_0_0_1_n_n_wf : DotDims.WF S10000x64 S64x48 S10000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S10000x48_S48x32_S10000x32_1_0_0_1_n_n_wf : DotDims.WF S10000x48 S48x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x48.size a ≤ S64x48.size a
  hwx0_1 : ∀ i : grid0.Coords, EltTy.bits .f32 = 32 ∨ (Rect.block (s := S64x48) S64x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x48.size a ≤ S100000x48.size a
  hwx0_3 : ∀ i : grid0.Coords, EltTy.bits .f32 = 32 ∨ (Rect.block (s := S100000x48) S10000x48.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x48.size a ≤ S1x48.size a
  hwx1_2 : ∀ i : grid1.Coords, EltTy.bits .f32 = 32 ∨ (Rect.block (s := S1x48) S1x48.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S48x32.size a ≤ S48x32.size a
  hwx1_3 : ∀ i : grid1.Coords, EltTy.bits .f32 = 32 ∨ (Rect.block (s := S48x32) S48x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x64_S64x48_S10000x48_1_0_0_1_n_n : DotDims S10000x64 S64x48 S10000x48 where
  lhsContracting := [1]
  rhsContracting := [0]
  lhsNonContracting := [0]
  rhsNonContracting := [1]
  lhsBatch := []
  rhsBatch := []
  wf := dot_S10000x64_S64x48_S10000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S10000x48_S48x32_S10000x32_1_0_0_1_n_n : DotDims S10000x48 S48x32 S10000x32 where
  lhsContracting := [1]
  rhsContracting := [0]
  lhsNonContracting := [0]
  rhsNonContracting := [1]
  lhsBatch := []
  rhsBatch := []
  wf := dot_S10000x48_S48x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S10000x48.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S48x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S10000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x48 : Shape := ⟨2, ![64, 48]⟩
abbrev S48 : Shape := ⟨1, ![48]⟩
abbrev S48x32 : Shape := ⟨2, ![48, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S1700000x48 : Shape := ⟨2, ![1700000, 48]⟩
abbrev S1x48 : Shape := ⟨2, ![1, 48]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x48, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x48, .f32⟩
  | .hbm, ⟨59, _⟩ => ⟨S1700000x1, .f32⟩
  | .hbm, ⟨60, _⟩ => ⟨S1700000x48, .f32⟩
  | .hbm, ⟨61, _⟩ => ⟨S1700000x48, .f32⟩
  | .hbm, ⟨62, _⟩ => ⟨S_, .f32⟩
  | .hbm, ⟨63, _⟩ => ⟨S100000x48, .f32⟩
  | .hbm, ⟨64, _⟩ => ⟨S1700000x1, .i32⟩
  | .hbm, ⟨65, _⟩ => ⟨S100000x48, .f32⟩
  | .hbm, ⟨66, _⟩ => ⟨S1x48, .f32⟩
  | .hbm, ⟨67, _⟩ => ⟨S100000x48, .f32⟩
  | .hbm, ⟨68, _⟩ => ⟨S100000x48, .f32⟩
  | .hbm, ⟨69, _⟩ => ⟨S_, .f32⟩
  | .hbm, ⟨70, _⟩ => ⟨S100000x48, .f32⟩
  | .hbm, ⟨71, _⟩ => ⟨S100000x48, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x1, .f32⟩
  | .hbm, ⟨102, _⟩ => ⟨S1700000x32, .f32⟩
  | .hbm, ⟨103, _⟩ => ⟨S1700000x32, .f32⟩
  | .hbm, ⟨104, _⟩ => ⟨S_, .f32⟩
  | .hbm, ⟨105, _⟩ => ⟨S100000x32, .f32⟩
  | .hbm, ⟨106, _⟩ => ⟨S1700000x1, .i32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S100000x64_S64x48_S100000x48_1_0_0_1_n_n_wf : DotDims.WF S100000x64 S64x48 S100000x48 [1] [0] [0] [1] [] []
  gather_S100000_S1700000x1_S1700000_n_0_n_n_0_1_1_wf : GatherDims.WF S100000 S1700000x1 S1700000 [] [0] [] [0] [] 1 ![1]
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S100000x48_S48x32_S100000x32_1_0_0_1_n_n_wf : DotDims.WF S100000x48 S48x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x48_S100000x48_1_0_0_1_n_n : DotDims S100000x64 S64x48 S100000x48 where
  lhsContracting := [1]
  rhsContracting := [0]
  lhsNonContracting := [0]
  rhsNonContracting := [1]
  lhsBatch := []
  rhsBatch := []
  wf := dot_S100000x64_S64x48_S100000x48_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S100000x48_S48x32_S100000x32_1_0_0_1_n_n : DotDims S100000x48 S48x32 S100000x32 where
  lhsContracting := [1]
  rhsContracting := [0]
  lhsNonContracting := [0]
  rhsNonContracting := [1]
  lhsBatch := []
  rhsBatch := []
  wf := dot_S100000x48_S48x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The kernel program's run with its result named.

  Every weakly fair execution of the program ends, faults nowhere, leaves the six argument arrays as they were, and leaves
  in the result buffer what the last stretch of host operations computes from the buffers as the second region left them
  (`W7` at the result's reference: the fold of the program's stretches and regions from the launch memory). This is the
  program's frame statement with one more conjunct; the same launch over the same segments proves it, the result's buffer
  being one of the unscoped buffers the last thread state holds.
-/
import proofs.«144295_j66262755442783_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v45 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.Payloads.lean ====
/-
  The two kernel bodies, read at an index of the block they store.

  The first body stores, at row `p` and column `q` of its block, the product of row `p` of the input block with column `q`
  of the weight matrix, times the row's degree factor:

      (∑ k, x (p, k) · w (k, q)) · d (p, 0) .

  The second body first rescales its input row by the degree factor, adds the bias and clamps at zero, then does the same
  product and rescaling with the second weight matrix:

      (∑ k, max (a (p, k) · d (p, 0) + b (0, k)) 0 · w (k, q)) · d (p, 0) .

  Rounding the matrix product's operands to a narrower format is the identity on the extended reals, so it does not show.
-/
import proofs.«144295_j66262755442783_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«144295_j66262755442783_2_alg».proof.Proof.LibPlainDot
import proofs.«144295_j66262755442783_2_alg».proof.Proof.LibColumns

open scoped BigOperators

namespace Cert.KernelIdeal.Pay

open Cert.KernelIdeal Cert.KernelIdeal.Gen Idealize.ShloMosaic Idealize.ShloMosaic.ValueIdx

/-! ## The operand indices of the two products: row `i 0` against the contraction position, the contraction position
    against column `i 1` -/

theorem dot0_l0 (i : S10000x48.Idx) (q : dot_S10000x64_S64x48_S10000x48_1_0_0_1_n_n.contr.Idx) :
    (dot_S10000x64_S64x48_S10000x48_1_0_0_1_n_n.lhsIdx i q (0 : Fin 2)).val = (i (0 : Fin 2)).val := by
  unfold DotDims.lhsIdx
  rw [dif_neg (show ¬(0 : Fin S10000x64.rank) ∈ dot_S10000x64_S64x48_S10000x48_1_0_0_1_n_n.lhsBatch by decide), dif_pos (show (0 : Fin S10000x64.rank) ∈ dot_S10000x64_S64x48_S10000x48_1_0_0_1_n_n.lhsNonContracting by decide)]
  rfl
theorem dot0_l1 (i : S10000x48.Idx) (q : dot_S10000x64_S64x48_S10000x48_1_0_0_1_n_n.contr.Idx) :
    (dot_S10000x64_S64x48_S10000x48_1_0_0_1_n_n.lhsIdx i q (1 : Fin 2)).val = (q ⟨0, by decide⟩).val :=
  dot_S10000x64_S64x48_S10000x48_1_0_0_1_n_n.lhsIdx_val_of_single rfl i q
theorem dot0_r0 (i : S10000x48.Idx) (q : dot_S10000x64_S64x48_S10000x48_1_0_0_1_n_n.contr.Idx) :
    (dot_S10000x64_S64x48_S10000x48_1_0_0_1_n_n.rhsIdx i q (0 : Fin 2)).val = (q ⟨0, by decide⟩).val :=
  dot_S10000x64_S64x48_S10000x48_1_0_0_1_n_n.rhsIdx_val_of_single rfl i q
theorem dot0_r1 (i : S10000x48.Idx) (q : dot_S10000x64_S64x48_S10000x48_1_0_0_1_n_n.contr.Idx) :
    (dot_S10000x64_S64x48_S10000x48_1_0_0_1_n_n.rhsIdx i q (1 : Fin 2)).val = (i (1 : Fin 2)).val := by
  unfold DotDims.rhsIdx
  rw [dif_neg (show ¬(1 : Fin S64x48.rank) ∈ dot_S10000x64_S64x48_S10000x48_1_0_0_1_n_n.rhsBatch by decide), dif_pos (show (1 : Fin S64x48.rank) ∈ dot_S10000x64_S64x48_S10000x48_1_0_0_1_n_n.rhsNonContracting by decide)]
  rfl

theorem dot1_l0 (i : S10000x32.Idx) (q : dot_S10000x48_S48x32_S10000x32_1_0_0_1_n_n.contr.Idx) :
    (dot_S10000x48_S48x32_S10000x32_1_0_0_1_n_n.lhsIdx i q (0 : Fin 2)).val = (i (0 : Fin 2)).val := by
  unfold DotDims.lhsIdx
  rw [dif_neg (show ¬(0 : Fin S10000x48.rank) ∈ dot_S10000x48_S48x32_S10000x32_1_0_0_1_n_n.lhsBatch by decide), dif_pos (show (0 : Fin S10000x48.rank) ∈ dot_S10000x48_S48x32_S10000x32_1_0_0_1_n_n.lhsNonContracting by decide)]
  rfl
theorem dot1_l1 (i : S10000x32.Idx) (q : dot_S10000x48_S48x32_S10000x32_1_0_0_1_n_n.contr.Idx) :
    (dot_S10000x48_S48x32_S10000x32_1_0_0_1_n_n.lhsIdx i q (1 : Fin 2)).val = (q ⟨0, by decide⟩).val :=
  dot_S10000x48_S48x32_S10000x32_1_0_0_1_n_n.lhsIdx_val_of_single rfl i q
theorem dot1_r0 (i : S10000x32.Idx) (q : dot_S10000x48_S48x32_S10000x32_1_0_0_1_n_n.contr.Idx) :
    (dot_S10000x48_S48x32_S10000x32_1_0_0_1_n_n.rhsIdx i q (0 : Fin 2)).val = (q ⟨0, by decide⟩).val :=
  dot_S10000x48_S48x32_S10000x32_1_0_0_1_n_n.rhsIdx_val_of_single rfl i q
theorem dot1_r1 (i : S10000x32.Idx) (q : dot_S10000x48_S48x32_S10000x32_1_0_0_1_n_n.contr.Idx) :
    (dot_S10000x48_S48x32_S10000x32_1_0_0_1_n_n.rhsIdx i q (1 : Fin 2)).val = (i (1 : Fin 2)).val := by
  unfold DotDims.rhsIdx
  rw [dif_neg (show ¬(1 : Fin S48x32.rank) ∈ dot_S10000x48_S48x32_S10000x32_1_0_0_1_n_n.rhsBatch by decide), dif_pos (show (1 : Fin S48x32.rank) ∈ dot_S10000x48_S48x32_S10000x32_1_0_0_1_n_n.rhsNonContracting by decide)]
  rfl

/-! ## The first body -/

theorem pay0_apply (x0 : FVec Ideal S10000x64 .f32) (x1 : FVec Ideal S64x48 .f32) (x2 : FVec Ideal S10000x1 .f32)
    (p : Fin 10000) (q : Fin 48) :
    k0_pay1 (F := Ideal) x0 x1 x2 (ix2 p q)
      = (∑ k : Fin 64, x0 (ix2 p k) * x1 (ix2 k q)) * x2 (ix2 p (0 : Fin 1)) := by
  unfold k0_pay1
  refine (mulf_apply _ _ _).trans ?_
  refine congrArg₂ (fun u v : EReal => u * v) ?_ ?_
  · exact Cert.Lib.PlainDot.matmul_zero_ix2 (M := 10000) (K := 64) (N := 48) dot_S10000x64_S64x48_S10000x48_1_0_0_1_n_n rfl rfl
      dot0_l0 dot0_l1 dot0_r0 dot0_r1 none _ _ p q
  · exact (Cert.Lib.Columns.broadcastTo_a1_ab_apply _ _ p q).trans (congrFun (shapeCast_self x2 _) _)

/-! ## The second body -/

/-- The clamped, biased, rescaled input row: what the second product's left operand holds at `(p, k)`. -/
theorem hidden_apply (d : FVec Ideal S10000x1 .f32) (a : FVec Ideal S10000x48 .f32) (b : FVec Ideal S1x48 .f32)
    (p : Fin 10000) (k : Fin 48) :
    maximumf (addf (mulf (shapeCast S10000x48 a shapeCasts_S10000x48_S10000x48)
        (broadcastTo S10000x48 (shapeCast S10000x1 d shapeCasts_S10000x1_S10000x1) broadcasts_S10000x1_S10000x48))
        (broadcastTo S10000x48 (shapeCast S1x48 b shapeCasts_S1x48_S1x48) broadcasts_S1x48_S10000x48))
      (broadcast S10000x48 (Scalar.ofBits (F := Ideal) .f32 0x00000000#32)) (ix2 p k)
      = max (a (ix2 p k) * d (ix2 p (0 : Fin 1)) + b (ix2 (0 : Fin 1) k)) 0 := by
  refine (maximumf_apply _ _ _).trans ?_
  refine congrArg₂ (fun u v : EReal => max u v) ?_ Ideal.ofBits_zero_f32
  refine (addf_apply _ _ _).trans ?_
  refine congrArg₂ (fun u v : EReal => u + v) ?_ ?_
  · refine (mulf_apply _ _ _).trans ?_
    refine congrArg₂ (fun u v : EReal => u * v) (congrFun (shapeCast_self a _) _) ?_
    exact (Cert.Lib.Columns.broadcastTo_a1_ab_apply _ _ p k).trans (congrFun (shapeCast_self d _) _)
  · exact (broadcastTo_1b_ab_apply _ _ p k).trans (congrFun (shapeCast_self b _) _)

theorem pay1_apply (d : FVec Ideal S10000x1 .f32) (a : FVec Ideal S10000x48 .f32) (b : FVec Ideal S1x48 .f32)
    (w : FVec Ideal S48x32 .f32) (p : Fin 10000) (q : Fin 32) :
    k1_pay1 (F := Ideal) d a b w (ix2 p q)
      = (∑ k : Fin 48, max (a (ix2 p k) * d (ix2 p (0 : Fin 1)) + b (ix2 (0 : Fin 1) k)) 0 * w (ix2 k q))
          * d (ix2 p (0 : Fin 1)) := by
  unfold k1_pay1
  refine (mulf_apply _ _ _).trans ?_
  refine congrArg₂ (fun u v : EReal => u * v) ?_ ?_
  · refine (Cert.Lib.PlainDot.matmul_zero_ix2 (M := 10000) (K := 48) (N := 32) dot_S10000x48_S48x32_S10000x32_1_0_0_1_n_n rfl rfl
      dot1_l0 dot1_l1 dot1_r0 dot1_r1 none _ _ p q).trans ?_
    refine Finset.sum_congr rfl fun k _ => ?_
    exact congrArg (fun u : EReal => u * w (ix2 k q)) (hidden_apply d a b p k)
  · exact (Cert.Lib.Columns.broadcastTo_a1_ab_apply _ _ p q).trans (congrFun (shapeCast_self d _) _)

end Cert.KernelIdeal.Pay
-- ==== Proof.Blocks0.lean ====
/-
  The first region's output array as one function of the arrays it reads.

  The region walks ten blocks of 10000 rows. At block `t` the body reads rows `10000·t … 10000·t + 9999` of the features and
  of the degree column, and the whole weight matrix, and writes the same rows of the output. So the output array ends
  holding, at `(n, j)`,

      (∑ k, x (n, k) · w (k, j)) · d (n, 0) ,

  whatever the block: each block's write-back is the restriction of this one function to the block's rows, and the ten
  blocks cover every row.
-/
import proofs.«144295_j66262755442783_2_alg».proof.Proof.Gen.KernelIdeal.Frame
import proofs.«144295_j66262755442783_2_alg».proof.Proof.Payloads
import Idealize.ShloMosaic.Lib.Pipeline.Value
import Idealize.ShloMosaic.Lib.ValueIdx

set_option maxRecDepth 16384

open scoped BigOperators

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- Row `n` of the features times column `j` of the weights, times the degree factor of node `n`. -/
def G1 (x : S100000x64.Idx → EReal) (w : S64x48.Idx → EReal) (d : S100000x1.Idx → EReal) : S100000x48.Idx → EReal :=
  fun i => (∑ k : Fin 64, x (ix2 (⟨(i 0).val, (i 0).isLt⟩ : Fin 100000) k) * w (ix2 k (⟨(i 1).val, (i 1).isLt⟩ : Fin 48)))
    * d (ix2 (⟨(i 0).val, (i 0).isLt⟩ : Fin 100000) (0 : Fin 1))

theorem G1_ix2 (x : S100000x64.Idx → EReal) (w : S64x48.Idx → EReal) (d : S100000x1.Idx → EReal) (n : Fin 100000) (j : Fin 48) :
    G1 x w d (ix2 n j) = (∑ k : Fin 64, x (ix2 n k) * w (ix2 k j)) * d (ix2 n (0 : Fin 1)) := rfl

theorem hz : (![0, 0] : Fin 2 → Nat) = fun _ => 0 := funext fun a => by fin_cases a <;> rfl

variable (V : (c : Dev nD) → (b : Ref sig .tc) → Buf (Elt Ideal) ((c : Thread nD τ).loc b))

/-- The block indices over the grid: the feature, degree and output blocks move together along the rows; the weight block
    and every column block stay at zero; there are ten row blocks. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 9 :=
  (by decide +kernel : ∀ t : Fin grid0.N, _)

/-- Every row block is some point's. -/
theorem idx_onto0 : ∀ (q0 : Fin 10), ∃ t : Fin cfg0.N, win0_3.index t = ![q0.val, 0] :=
  (by decide +kernel : ∀ (q0 : Fin 10), ∃ t : Fin grid0.N, win0_3.index t = ![q0.val, 0])

/-- Entry `(p, k)` of the feature block at point `t` is the features at row `10000·(block) + p`. -/
theorem read0_x (c : Dev nD) (t : Fin cfg0.N) (p : Fin 10000) (k : Fin 64) (r : Fin 100000)
    (hr : r.val = win0_3.index t (0 : Fin 2) * 10000 + p.val) :
    iblk0 V c 0 t (ix2 p k) = V c main_arg0 (ix2 r k) := by
  obtain ⟨e0, e1, e2, e3, e4, e5, e6, e7⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 64 + 1 * k.val = k.val; omega

/-- The weight block is the weight matrix. -/
theorem read0_w (c : Dev nD) (t : Fin cfg0.N) (k : Fin 64) (q : Fin 48) :
    iblk0 V c 1 t (ix2 k q) = V c main_arg2 (ix2 k q) := by
  obtain ⟨e0, e1, e2, e3, e4, e5, e6, e7⟩ := idx_facts0 t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 64 + 1 * k.val = k.val; omega
  | ⟨1, _⟩ => show win0_1.index t (1 : Fin 2) * 48 + 1 * q.val = q.val; omega

/-- Entry `(p, 0)` of the degree block at point `t` is the degree column at row `10000·(block) + p`. -/
theorem read0_d (c : Dev nD) (t : Fin cfg0.N) (p : Fin 10000) (r : Fin 100000)
    (hr : r.val = win0_3.index t (0 : Fin 2) * 10000 + p.val) :
    iblk0 V c 2 t (ix2 p (0 : Fin 1)) = V c main_v17 (ix2 r (0 : Fin 1)) := by
  obtain ⟨e0, e1, e2, e3, e4, e5, e6, e7⟩ := idx_facts0 t
  show V c main_v17 (((cfg0.win 2).blk t).view.emb (ix2 p (0 : Fin 1))) = V c main_v17 (ix2 r (0 : Fin 1))
  refine congrArg (V c main_v17) (funext fun a => Fin.ext ?_)
  match a with
  | ⟨0, _⟩ => show win0_2.index t (0 : Fin 2) * 10000 + 1 * p.val = r.val; omega
  | ⟨1, _⟩ => show win0_2.index t (1 : Fin 2) * 1 + 1 * 0 = 0; omega

/-- Entry `(p, q)` of the output block at point `t` sits at row `10000·(block) + p`, column `q` of the array. -/
theorem emb0_out (t : Fin cfg0.N) (p : Fin 10000) (q : Fin 48) (r : Fin 100000)
    (hr : r.val = win0_3.index t (0 : Fin 2) * 10000 + p.val) :
    ((cfg0.win 3).blk t).view.emb (ix2 p q) = ix2 r q := by
  obtain ⟨e0, e1, e2, e3, e4, e5, e6, e7⟩ := idx_facts0 t
  refine funext fun a => Fin.ext ?_
  match a with
  | ⟨0, _⟩ => show win0_3.index t (0 : Fin 2) * 10000 + 1 * p.val = r.val; omega
  | ⟨1, _⟩ => show win0_3.index t (1 : Fin 2) * 48 + 1 * q.val = q.val; omega

/-- WHAT POINT `t` WRITES BACK is block `t` of `G1` of the arrays as the region finds them. -/
theorem flushed0_eq (c : Dev nD) (t : Fin cfg0.N) :
    (dat0 (F := Ideal) V c).flushed 3 t
      = ((cfg0.win 3).blk t).view.read (Elt Ideal) (G1 (V c main_arg0) (V c main_arg2) (V c main_v17)) := by
  show (cfg0.win 3).cut (grid0.coords t) ((dat0 (F := Ideal) V c).after 3 t) = _
  rw [after0_3]
  unfold out0_3
  rw [View.canon_unit_zero hz]
  simp only [View.ld_unit_zero (S := S10000x64) hz, View.ld_unit_zero (S := S64x48) hz, View.ld_unit_zero (S := S10000x1) hz]
  refine funext fun (j : S10000x48.Idx) => ?_
  obtain ⟨p, q, rfl⟩ : ∃ (p : Fin 10000) (q : Fin 48), j = ix2 p q := ⟨j 0, j 1, eq_ix2 j⟩
  obtain ⟨e0, e1, e2, e3, e4, e5, e6, e7⟩ := idx_facts0 t
  have hp : p.val < 10000 := p.isLt
  let r : Fin 100000 := ⟨win0_3.index t (0 : Fin 2) * 10000 + p.val, by omega⟩
  show k0_pay1 (F := Ideal) (iblk0 V c 0 t) (iblk0 V c 1 t) (iblk0 V c 2 t) (ix2 p q)
    = G1 (V c main_arg0) (V c main_arg2) (V c main_v17) (((cfg0.win 3).blk t).view.emb (ix2 p q))
  rw [emb0_out t p q r rfl]
  refine (Pay.pay0_apply (iblk0 V c 0 t) (iblk0 V c 1 t) (iblk0 V c 2 t) p q).trans ?_
  refine Eq.trans ?_ (G1_ix2 _ _ _ r q).symm
  refine congrArg₂ (fun u v : EReal => u * v) (Finset.sum_congr rfl fun k _ => ?_) (read0_d V c t p r rfl)
  exact congrArg₂ (fun u v : EReal => u * v) (read0_x V c t p k r rfl) (read0_w V c t k q)

/-- An index of the array is in point `t`'s block iff each coordinate is in the block's range on its axis. -/
theorem mem_blk0 (t : Fin cfg0.N) (i : S100000x48.Idx) :
    i ∈ ((cfg0.win 3).blk t).view.set ↔ ∀ a : Fin 2, win0_3.index t a * S10000x48.size a ≤ (i a).val ∧ (i a).val < win0_3.index t a * S10000x48.size a + S10000x48.size a := by
  show i ∈ ((View.whole main_v18).slice (win0_3.rect t)).set ↔ _
  rw [View.set_slice_whole, Rect.mem_set_unit]
  exact Iff.rfl

/-- Every index of the output array is in the block of the point that owns its row: row `r` is in block `r / 10000`. -/
theorem cover0 (i : S100000x48.Idx) :
    ∃ t : Fin cfg0.N, (cfg0.win 3).flush t = true ∧ i ∈ ((cfg0.win 3).blk t).view.set := by
  have hi0 : (i 0).val < 100000 := (i 0).isLt
  have hi1 : (i 1).val < 48 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 48 ≤ (i 1).val ∧ (i 1).val < win0_3.index t (1 : Fin 2) * 48 + 48; omega

/-- THE ARRAY after the region: `G1` of the arrays the region found. -/
theorem final0 (c : Dev nD) :
    (dat0 (F := Ideal) V c).arrAt 3 cfg0.N = G1 (V c main_arg0) (V c main_arg2) (V c main_v17) :=
  (dat0 (F := Ideal) V c).arrAt_eq_of_cover 3 (G1 (V c main_arg0) (V c main_arg2) (V c main_v17))
    (fun t _ => flushed0_eq V c t) cover0

end Cert.KernelIdeal.Region0

end
-- ==== Proof.Blocks1.lean ====
/-
  The second region's output array as one function of the arrays it reads.

  Again ten blocks of 10000 rows. At block `t` the body reads the same rows of the aggregated features and of the degree
  column, the whole bias row and the whole second weight matrix, and writes those rows of the output. The output array
  ends holding, at `(n, j)`,

      (∑ k, max (a (n, k) · d (n, 0) + b (0, k)) 0 · w (k, j)) · d (n, 0) .
-/
import proofs.«144295_j66262755442783_2_alg».proof.Proof.Gen.KernelIdeal.Frame
import proofs.«144295_j66262755442783_2_alg».proof.Proof.Payloads
import Idealize.ShloMosaic.Lib.Pipeline.Value
import Idealize.ShloMosaic.Lib.ValueIdx

set_option maxRecDepth 16384

open scoped BigOperators

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The hidden row of node `n` (its aggregated features rescaled, biased and clamped at zero) times column `j` of the
    second weights, times the degree factor of node `n`. -/
def G2 (a : S100000x48.Idx → EReal) (d : S100000x1.Idx → EReal) (b : S1x48.Idx → EReal) (w : S48x32.Idx → EReal) :
    S100000x32.Idx → EReal :=
  fun i => (∑ k : Fin 48, max (a (ix2 (⟨(i 0).val, (i 0).isLt⟩ : Fin 100000) k)
        * d (ix2 (⟨(i 0).val, (i 0).isLt⟩ : Fin 100000) (0 : Fin 1)) + b (ix2 (0 : Fin 1) k)) 0
      * w (ix2 k (⟨(i 1).val, (i 1).isLt⟩ : Fin 32)))
    * d (ix2 (⟨(i 0).val, (i 0).isLt⟩ : Fin 100000) (0 : Fin 1))

theorem G2_ix2 (a : S100000x48.Idx → EReal) (d : S100000x1.Idx → EReal) (b : S1x48.Idx → EReal) (w : S48x32.Idx → EReal)
    (n : Fin 100000) (j : Fin 32) :
    G2 a d b w (ix2 n j) = (∑ k : Fin 48, max (a (ix2 n k) * d (ix2 n (0 : Fin 1)) + b (ix2 (0 : Fin 1) k)) 0 * w (ix2 k j))
      * d (ix2 n (0 : Fin 1)) := rfl

theorem hz : (![0, 0] : Fin 2 → Nat) = fun _ => 0 := funext fun a => by fin_cases a <;> rfl

variable (V : (c : Dev nD) → (b : Ref sig .tc) → Buf (Elt Ideal) ((c : Thread nD τ).loc b))

/-- The block indices over the grid: the aggregated-feature, degree and output blocks move together along the rows; the
    bias and weight blocks and every column block stay at zero; there are ten row blocks. -/
theorem idx_facts1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every row block is some point's. -/
theorem idx_onto1 : ∀ (q0 : Fin 10), ∃ t : Fin cfg1.N, win1_4.index t = ![q0.val, 0] :=
  (by decide +kernel : ∀ (q0 : Fin 10), ∃ t : Fin grid1.N, win1_4.index t = ![q0.val, 0])

theorem read1_a (c : Dev nD) (t : Fin cfg1.N) (p : Fin 10000) (k : Fin 48) (r : Fin 100000)
    (hr : r.val = win1_4.index t (0 : Fin 2) * 10000 + p.val) :
    iblk1 V c 0 t (ix2 p k) = V c main_v28 (ix2 r k) := by
  obtain ⟨e0, e1, e2, e3, e4, e5, e6, e7, e8, e9⟩ := idx_facts1 t
  show V c main_v28 (((cfg1.win 0).blk t).view.emb (ix2 p k)) = V c main_v28 (ix2 r k)
  refine congrArg (V c main_v28) (funext fun a => Fin.ext ?_)
  match a with
  | ⟨0, _⟩ => show win1_0.index t (0 : Fin 2) * 10000 + 1 * p.val = r.val; omega
  | ⟨1, _⟩ => show win1_0.index t (1 : Fin 2) * 48 + 1 * k.val = k.val; omega

theorem read1_d (c : Dev nD) (t : Fin cfg1.N) (p : Fin 10000) (r : Fin 100000)
    (hr : r.val = win1_4.index t (0 : Fin 2) * 10000 + p.val) :
    iblk1 V c 1 t (ix2 p (0 : Fin 1)) = V c main_v17 (ix2 r (0 : Fin 1)) := by
  obtain ⟨e0, e1, e2, e3, e4, e5, e6, e7, e8, e9⟩ := idx_facts1 t
  show V c main_v17 (((cfg1.win 1).blk t).view.emb (ix2 p (0 : Fin 1))) = V c main_v17 (ix2 r (0 : Fin 1))
  refine congrArg (V c main_v17) (funext fun a => Fin.ext ?_)
  match a with
  | ⟨0, _⟩ => show win1_1.index t (0 : Fin 2) * 10000 + 1 * p.val = r.val; omega
  | ⟨1, _⟩ => show win1_1.index t (1 : Fin 2) * 1 + 1 * 0 = 0; omega

theorem read1_b (c : Dev nD) (t : Fin cfg1.N) (k : Fin 48) :
    iblk1 V c 2 t (ix2 (0 : Fin 1) k) = V c main_v29 (ix2 (0 : Fin 1) k) := by
  obtain ⟨e0, e1, e2, e3, e4, e5, e6, e7, e8, e9⟩ := idx_facts1 t
  show V c main_v29 (((cfg1.win 2).blk t).view.emb (ix2 (0 : Fin 1) k)) = V c main_v29 (ix2 (0 : Fin 1) k)
  refine congrArg (V c main_v29) (funext fun a => Fin.ext ?_)
  match a with
  | ⟨0, _⟩ => show win1_2.index t (0 : Fin 2) * 1 + 1 * 0 = 0; omega
  | ⟨1, _⟩ => show win1_2.index t (1 : Fin 2) * 48 + 1 * k.val = k.val; omega

theorem read1_w (c : Dev nD) (t : Fin cfg1.N) (k : Fin 48) (q : Fin 32) :
    iblk1 V c 3 t (ix2 k q) = V c main_arg4 (ix2 k q) := by
  obtain ⟨e0, e1, e2, e3, e4, e5, e6, e7, e8, e9⟩ := idx_facts1 t
  show V c main_arg4 (((cfg1.win 3).blk t).view.emb (ix2 k q)) = V c main_arg4 (ix2 k q)
  refine congrArg (V c main_arg4) (funext fun a => Fin.ext ?_)
  match a with
  | ⟨0, _⟩ => show win1_3.index t (0 : Fin 2) * 48 + 1 * k.val = k.val; omega
  | ⟨1, _⟩ => show win1_3.index t (1 : Fin 2) * 32 + 1 * q.val = q.val; omega

theorem emb1_out (t : Fin cfg1.N) (p : Fin 10000) (q : Fin 32) (r : Fin 100000)
    (hr : r.val = win1_4.index t (0 : Fin 2) * 10000 + p.val) :
    ((cfg1.win 4).blk t).view.emb (ix2 p q) = ix2 r q := by
  obtain ⟨e0, e1, e2, e3, e4, e5, e6, e7, e8, e9⟩ := idx_facts1 t
  refine funext fun a => Fin.ext ?_
  match a with
  | ⟨0, _⟩ => show win1_4.index t (0 : Fin 2) * 10000 + 1 * p.val = r.val; omega
  | ⟨1, _⟩ => show win1_4.index t (1 : Fin 2) * 32 + 1 * q.val = q.val; omega

/-- WHAT POINT `t` WRITES BACK is block `t` of `G2` of the arrays as the region finds them. -/
theorem flushed1_eq (c : Dev nD) (t : Fin cfg1.N) :
    (dat1 (F := Ideal) V c).flushed 4 t
      = ((cfg1.win 4).blk t).view.read (Elt Ideal) (G2 (V c main_v28) (V c main_v17) (V c main_v29) (V c main_arg4)) := by
  show (cfg1.win 4).cut (grid1.coords t) ((dat1 (F := Ideal) V c).after 4 t) = _
  rw [after1_4]
  unfold out1_4
  rw [View.canon_unit_zero hz]
  simp only [View.ld_unit_zero (S := S10000x48) hz, View.ld_unit_zero (S := S10000x1) hz, View.ld_unit_zero (S := S1x48) hz,
    View.ld_unit_zero (S := S48x32) hz]
  refine funext fun (j : S10000x32.Idx) => ?_
  obtain ⟨p, q, rfl⟩ : ∃ (p : Fin 10000) (q : Fin 32), j = ix2 p q := ⟨j 0, j 1, eq_ix2 j⟩
  obtain ⟨e0, e1, e2, e3, e4, e5, e6, e7, e8, e9⟩ := idx_facts1 t
  have hp : p.val < 10000 := p.isLt
  let r : Fin 100000 := ⟨win1_4.index t (0 : Fin 2) * 10000 + p.val, by omega⟩
  show k1_pay1 (F := Ideal) (iblk1 V c 1 t) (iblk1 V c 0 t) (iblk1 V c 2 t) (iblk1 V c 3 t) (ix2 p q)
    = G2 (V c main_v28) (V c main_v17) (V c main_v29) (V c main_arg4) (((cfg1.win 4).blk t).view.emb (ix2 p q))
  rw [emb1_out t p q r rfl]
  refine (Pay.pay1_apply (iblk1 V c 1 t) (iblk1 V c 0 t) (iblk1 V c 2 t) (iblk1 V c 3 t) p q).trans ?_
  refine Eq.trans ?_ (G2_ix2 _ _ _ _ r q).symm
  refine congrArg₂ (fun u v : EReal => u * v) (Finset.sum_congr rfl fun k _ => ?_) (read1_d V c t p r rfl)
  refine congrArg₂ (fun u v : EReal => u * v) ?_ (read1_w V c t k q)
  refine congrArg (fun u : EReal => max u 0) ?_
  exact congrArg₂ (fun u v : EReal => u + v)
    (congrArg₂ (fun u v : EReal => u * v) (read1_a V c t p k r rfl) (read1_d V c t p r rfl)) (read1_b V c t k)

/-- An index of the array is in point `t`'s block iff each coordinate is in the block's range on its axis. -/
theorem mem_blk1 (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v30).slice (win1_4.rect t)).set ↔ _
  rw [View.set_slice_whole, Rect.mem_set_unit]
  exact Iff.rfl

/-- Every index of the output array is in the block of the point that owns its row. -/
theorem cover1 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht⟩ := idx_onto1 ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 32 ≤ (i 1).val ∧ (i 1).val < win1_4.index t (1 : Fin 2) * 32 + 32; omega

/-- THE ARRAY after the region: `G2` of the arrays the region found. -/
theorem final1 (c : Dev nD) :
    (dat1 (F := Ideal) V c).arrAt 4 cfg1.N = G2 (V c main_v28) (V c main_v17) (V c main_v29) (V c main_arg4) :=
  (dat1 (F := Ideal) V c).arrAt_eq_of_cover 4 (G2 (V c main_v28) (V c main_v17) (V c main_v29) (V c main_arg4))
    (fun t _ => flushed1_eq V c t) cover1

end Cert.KernelIdeal.Region1

end
-- ==== Proof.KernelValue.lean ====
/-
  The kernel program's result as one term of its six arguments.

  The program is: a host prefix that builds the edge lists with self loops, the degrees and the degree factor `c = deg^(-1/2)`
  (zero where the degree is zero); the first region (features times weights, rows scaled by `c`); a gather of those rows by
  source and a scatter-add by destination; the second region (rescale by `c`, bias, clamp, second weights, rows scaled by
  `c`); the same gather and scatter-add; and a last rescaling by `c` plus the second bias.

  The edge lists, their wrapped and column forms and the degree factor are the SAME host operations in the reference
  program; they are named here by the reference's own stage functions, so that the two programs' results are later
  compared over literally the same index data. Each lemma below reads one buffer at one boundary of the program's run
  back to the launch memory: a host stretch by unfolding its operations' results, a region's output by the region's
  whole-array function, a buffer a region or stretch does not write by what it held before.
-/
import proofs.«144295_j66262755442783_2_alg».proof.Proof.Gen.KernelIdeal.Frame
import proofs.«144295_j66262755442783_2_alg».proof.Proof.RefRead
import proofs.«144295_j66262755442783_2_alg».proof.Proof.Blocks0
import proofs.«144295_j66262755442783_2_alg».proof.Proof.Blocks1
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Idealize.SL.Sem
open Cert.KernelIdeal.Region0 (G1)
open Cert.KernelIdeal.Region1 (G2)

/-! ## The program's pure stages -/

/-- The degree factor as a column. -/
def disCol (ei : IVec S2x1600000 32) : FVec Ideal S100000x1 .f32 :=
  shapeCast S100000x1 (Cert.ReferenceIdeal.Read.val_main_v16 (F := Ideal) ei) shapeCasts_S100000_S100000x1

/-- Rows of `g` gathered by (wrapped) source and scatter-added by destination, 48 columns. -/
def agg48 (g : FVec Ideal S100000x48 .f32) (ei : IVec S2x1600000 32) : FVec Ideal S100000x48 .f32 :=
  Host.scatterAdd scatter_S100000x48_S1700000x1_S1700000x48_1_0_0_1
    (broadcastInDim S100000x48 ![] bcast_S_S100000x48 (constant (F := Ideal) S_ .f32 0x00000000#32))
    (Cert.ReferenceIdeal.Read.val_main_v44 (F := Ideal) ei)
    (Host.gather gather_S100000x48_S1700000x1_S1700000x48_1_0_n_n_0_1_148 g (Cert.ReferenceIdeal.Read.val_main_v38 (F := Ideal) ei))

/-- The same with 32 columns. -/
def agg32 (g : FVec Ideal S100000x32 .f32) (ei : IVec S2x1600000 32) : FVec Ideal S100000x32 .f32 :=
  Host.scatterAdd scatter_S100000x32_S1700000x1_S1700000x32_1_0_0_1
    (broadcastInDim S100000x32 ![] bcast_S_S100000x32 (constant (F := Ideal) S_ .f32 0x00000000#32))
    (Cert.ReferenceIdeal.Read.val_main_v77 (F := Ideal) ei)
    (Host.gather gather_S100000x32_S1700000x1_S1700000x32_1_0_n_n_0_1_132 g (Cert.ReferenceIdeal.Read.val_main_v71 (F := Ideal) ei))

/-- The last stretch: the aggregated rows rescaled by the degree factor, plus the bias. -/
def outT (a2 : FVec Ideal S100000x32 .f32) (d2 : FVec Ideal S100000x1 .f32) (b2 : FVec Ideal S32 .f32) :
    FVec Ideal S100000x32 .f32 :=
  addf (mulf (broadcastInDim S100000x32 ![0, 1] bcast_S100000x1_S100000x32_0_1 d2) a2)
    (broadcastInDim S100000x32 ![0, 1] bcast_S1x32_S100000x32_0_1 (broadcastInDim S1x32 ![1] bcast_S32_S1x32_1 b2))

/-- THE KERNEL PROGRAM'S RESULT. -/
def result (x : FVec Ideal S100000x64 .f32) (ei : IVec S2x1600000 32) (w1 : FVec Ideal S64x48 .f32)
    (b1 : FVec Ideal S48 .f32) (w2 : FVec Ideal S48x32 .f32) (b2 : FVec Ideal S32 .f32) : FVec Ideal S100000x32 .f32 :=
  outT (agg32 (G2 (agg48 (G1 x w1 (disCol ei)) ei) (disCol ei) (shapeCast S1x48 b1 shapeCasts_S48_S1x48) w2) ei)
    (disCol ei) b2

variable (m : (ℓ : Loc nD τ sig) → Buf (Elt Ideal) ℓ) (ρ : Dev nD → PrngReg) (c : Dev nD)

/-! ## Before the first region -/

theorem V3_arg0 : V3 m ρ c main_arg0 = (m ((c : Thread nD τ).loc main_arg0)) := by
  show StableHlo.after hostOps0_2 (StableHlo.after hostOps0_1 (StableHlo.after hostOps0 (W0 m ρ c))) (Proc.devRef .tc main_arg0) = _
  after_results <;> rfl
theorem V3_arg2 : V3 m ρ c main_arg2 = (m ((c : Thread nD τ).loc main_arg2)) := by
  show StableHlo.after hostOps0_2 (StableHlo.after hostOps0_1 (StableHlo.after hostOps0 (W0 m ρ c))) (Proc.devRef .tc main_arg2) = _
  after_results <;> rfl
theorem W3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results <;> rfl
theorem W3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results <;> rfl
theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results <;> rfl
theorem W3_v3 : W3 m ρ c (Proc.devRef .tc main_v3) = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  after_results <;> rfl
theorem W3_v6 : W3 m ρ c (Proc.devRef .tc main_v6) = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results <;> rfl
theorem W1_v12 : W1 m ρ c (Proc.devRef .tc main_v12) = Cert.ReferenceIdeal.Read.val_main_v12 (F := Ideal) (m ((c : Thread nD τ).loc main_arg1)) := by
  show StableHlo.after hostOps0 (W0 m ρ c) (Proc.devRef .tc main_v12) = _
  after_results <;> rfl
theorem W1_v15 : W1 m ρ c (Proc.devRef .tc main_v15) = Cert.ReferenceIdeal.Read.val_main_v15 (F := Ideal) (m ((c : Thread nD τ).loc main_arg1)) := by
  show StableHlo.after hostOps0 (W0 m ρ c) (Proc.devRef .tc main_v15) = _
  after_results <;> rfl
theorem W1_cst_3 : W1 m ρ c (Proc.devRef .tc main_cst_3) = Cert.ReferenceIdeal.Read.val_main_cst_3 (F := Ideal) := by
  show StableHlo.after hostOps0 (W0 m ρ c) (Proc.devRef .tc main_cst_3) = _
  after_results <;> rfl

/-- The select and the cast to a column, over whatever the comparison, the reciprocal square root and the zero are. -/
theorem v17_of (Wv : Valuation τ sig (Elt Ideal)) (X12 : IVec S100000 1) (X15 : FVec Ideal S100000 .f32)
    (C3 : FVec Ideal S_ .f32) (h12 : Wv (Proc.devRef .tc main_v12) = X12) (h15 : Wv (Proc.devRef .tc main_v15) = X15)
    (h3 : Wv (Proc.devRef .tc main_cst_3) = C3) :
    StableHlo.after hostOps0_2 (StableHlo.after hostOps0_1 Wv) (Proc.devRef .tc main_v17)
      = shapeCast S100000x1 (select X12 X15 (broadcastInDim S100000 ![] bcast_S_S100000 (id C3)))
          shapeCasts_S100000_S100000x1 := by
  after_results
  rw [h12, h15, h3]
  rfl

/-- The reference's stage for the degree factor, one step opened: the select of the three stages before it. -/
theorem v16_unfold (ei : IVec S2x1600000 32) :
    Cert.ReferenceIdeal.Read.val_main_v16 (F := Ideal) ei
      = select (Cert.ReferenceIdeal.Read.val_main_v12 (F := Ideal) ei) (Cert.ReferenceIdeal.Read.val_main_v15 (F := Ideal) ei)
          (broadcastInDim S100000 ![] bcast_S_S100000 (id (Cert.ReferenceIdeal.Read.val_main_cst_3 (F := Ideal)))) := by
  unfold Cert.ReferenceIdeal.Read.val_main_v16 Cert.ReferenceIdeal.Read.val_main_call0_v1 Cert.ReferenceIdeal.Read.val_main_call0_v0
  rfl

theorem V3_v17 : V3 m ρ c main_v17 = disCol (m ((c : Thread nD τ).loc main_arg1)) := by
  show StableHlo.after hostOps0_2 (StableHlo.after hostOps0_1 (W1 m ρ c)) (Proc.devRef .tc main_v17) = _
  refine (v17_of (W1 m ρ c) _ _ _ (W1_v12 m ρ c) (W1_v15 m ρ c) (W1_cst_3 m ρ c)).trans ?_
  unfold disCol
  rw [v16_unfold]

/-! ## After the first region -/

theorem W4_v18 : W4 m ρ c (Proc.devRef .tc main_v18) = G1 (m ((c : Thread nD τ).loc main_arg0)) (m ((c : Thread nD τ).loc main_arg2)) (disCol (m ((c : Thread nD τ).loc main_arg1))) := by
  refine (W4_arr m ρ c 3).trans ?_
  rw [Region0.final0 (V3 m ρ) c, V3_arg0, V3_arg2, V3_v17]
theorem W4_v17 : W4 m ρ c (Proc.devRef .tc main_v17) = disCol (m ((c : Thread nD τ).loc main_arg1)) :=
  ((W4_arr m ρ c 2).trans (((dat0 (V3 m ρ) c).arrAt_in 2 rfl _).trans (A_eq0 (V3 m ρ) c 2))).trans (V3_v17 m ρ c)
theorem W4_v3 : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v6 : W4 m ρ c (Proc.devRef .tc main_v6) = Cert.ReferenceIdeal.Read.val_main_v6 (F := Ideal) (m ((c : Thread nD τ).loc main_arg1)) :=
  (W4_of_ne m ρ c main_v6 (by decide)).trans (W3_v6 m ρ c)
theorem W4_arg3 : W4 m ρ c (Proc.devRef .tc main_arg3) = (m ((c : Thread nD τ).loc main_arg3)) :=
  (W4_of_ne m ρ c main_arg3 (by decide)).trans (W3_arg3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ## Before the second region -/

theorem V5_v28 : V5 m ρ c main_v28 = agg48 (G1 (m ((c : Thread nD τ).loc main_arg0)) (m ((c : Thread nD τ).loc main_arg2)) (disCol (m ((c : Thread nD τ).loc main_arg1)))) (m ((c : Thread nD τ).loc main_arg1)) := by
  show StableHlo.after hostOps1 (W4 m ρ c) (Proc.devRef .tc main_v28) = _
  after_results
  rw [W4_v18, W4_v3, W4_v6]
  rfl
theorem V5_v17 : V5 m ρ c main_v17 = disCol (m ((c : Thread nD τ).loc main_arg1)) := by
  show StableHlo.after hostOps1 (W4 m ρ c) (Proc.devRef .tc main_v17) = _
  after_results
  exact W4_v17 m ρ c
theorem V5_v29 : V5 m ρ c main_v29 = shapeCast S1x48 (m ((c : Thread nD τ).loc main_arg3)) shapeCasts_S48_S1x48 := by
  show StableHlo.after hostOps1 (W4 m ρ c) (Proc.devRef .tc main_v29) = _
  after_results
  rw [W4_arg3]
  rfl
theorem V5_arg4 : V5 m ρ c main_arg4 = (m ((c : Thread nD τ).loc main_arg4)) := by
  show StableHlo.after hostOps1 (W4 m ρ c) (Proc.devRef .tc main_arg4) = _
  after_results
  exact W4_arg4 m ρ c
theorem W5_v3 : W5 m ρ c (Proc.devRef .tc main_v3) = Cert.ReferenceIdeal.Read.val_main_v3 (F := Ideal) (m ((c : Thread nD τ).loc main_arg1)) := by
  show StableHlo.after hostOps1 (W4 m ρ c) (Proc.devRef .tc main_v3) = _
  after_results
  exact W4_v3 m ρ c
theorem W5_v6 : W5 m ρ c (Proc.devRef .tc main_v6) = Cert.ReferenceIdeal.Read.val_main_v6 (F := Ideal) (m ((c : Thread nD τ).loc main_arg1)) := by
  show StableHlo.after hostOps1 (W4 m ρ c) (Proc.devRef .tc main_v6) = _
  after_results
  exact W4_v6 m ρ c
theorem W5_arg5 : W5 m ρ c (Proc.devRef .tc main_arg5) = (m ((c : Thread nD τ).loc main_arg5)) := by
  show StableHlo.after hostOps1 (W4 m ρ c) (Proc.devRef .tc main_arg5) = _
  after_results
  exact W4_arg5 m ρ c

/-! ## After the second region -/

/-- The second region's output. -/
def g2Of (x : FVec Ideal S100000x64 .f32) (ei : IVec S2x1600000 32) (w1 : FVec Ideal S64x48 .f32)
    (b1 : FVec Ideal S48 .f32) (w2 : FVec Ideal S48x32 .f32) : FVec Ideal S100000x32 .f32 :=
  G2 (agg48 (G1 x w1 (disCol ei)) ei) (disCol ei) (shapeCast S1x48 b1 shapeCasts_S48_S1x48) w2

theorem W6_v30 : W6 m ρ c (Proc.devRef .tc main_v30) = g2Of (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ?_
  rw [Region1.final1 (V5 m ρ) c, V5_v28, V5_v17, V5_v29, V5_arg4]
  rfl
theorem W6_v17 : W6 m ρ c (Proc.devRef .tc main_v17) = disCol (m ((c : Thread nD τ).loc main_arg1)) :=
  ((W6_arr m ρ c 1).trans (((dat1 (V5 m ρ) c).arrAt_in 1 rfl _).trans (A_eq1 (V5 m ρ) c 1))).trans (V5_v17 m ρ c)
theorem W6_v3 : W6 m ρ c (Proc.devRef .tc main_v3) = Cert.ReferenceIdeal.Read.val_main_v3 (F := Ideal) (m ((c : Thread nD τ).loc main_arg1)) :=
  (W6_of_ne m ρ c main_v3 (by decide)).trans (W5_v3 m ρ c)
theorem W6_v6 : W6 m ρ c (Proc.devRef .tc main_v6) = Cert.ReferenceIdeal.Read.val_main_v6 (F := Ideal) (m ((c : Thread nD τ).loc main_arg1)) :=
  (W6_of_ne m ρ c main_v6 (by decide)).trans (W5_v6 m ρ c)
theorem W6_arg5 : W6 m ρ c (Proc.devRef .tc main_arg5) = (m ((c : Thread nD τ).loc main_arg5)) :=
  (W6_of_ne m ρ c main_arg5 (by decide)).trans (W5_arg5 m ρ c)

/-! ## The result -/

set_option maxHeartbeats 1600000 in
/-- THE RESULT BUFFER at the end of the run is the program's result term of the launch memory's arguments. -/
theorem W7_v45 : W7 m ρ c (Proc.devRef .tc main_v45) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W6 m ρ c) (Proc.devRef .tc main_v45) = _
  after_results_simp
  rw [W6_v30, W6_v17, W6_v3, W6_v6, W6_arg5]
  rfl

end Cert.KernelIdeal.Host

end
-- ==== Proof.LibRowScatter.lean ====
/-
  Rows gathered and rows scatter-added by one column of start indices, for a matrix and for the same data carrying a
  unit middle axis.

  A matrix `[N, D]` and the same data as `[N, 1, D]` are read by rows (gather) and accumulated by rows (scatter with an
  `add` body) with ONE column `[E, 1]` of signed start indices. The gather of `[N, 1, D]` at `(e, 0, d)` is the operand at
  `(r, 0, d)`, `r` the start index `idx (e, 0)` read signed and clamped into `[0, N − 1]`. A scatter does not clamp: update
  `(e, d')` (or `(e, 0, d')`) lands at `(n, d)` (or `(n, 0, d)`) exactly when the start index read signed IS `n` and
  `d' = d`; otherwise it lands elsewhere or is dropped. The two landing tests are the same condition, the update index
  sets `[E, 1, D]` and `[E, D]` are in bijection by forgetting the unit coordinate, so the rank-3 scatter-add of data that
  agree with rank-2 data entry by entry is the rank-2 scatter-add, entry by entry.
-/
import Idealize.ShloMosaic.PureOps.ShapeOps
import Idealize.ShloMosaic.PureOps.Ideal
import Idealize.ShloMosaic.Lib.ValueIdx

open scoped BigOperators

namespace Cert.Lib.RowScatter

open Idealize.ShloMosaic Idealize.ShloMosaic.ValueIdx

/-! ## The row gather of `[N, 1, D]` -/

/-- The dimension numbers of a row gather with a unit middle axis: operand `[N, 1, D]`, start indices `[E, 1]`,
    result `[E, 1, D]`; offset axes `1, 2`, collapsed axis `0`, start index map `[0]`, slice sizes `[1, 1, D]`. -/
abbrev rows3Dims (N D E : Nat)
    (wf : GatherDims.WF ⟨3, ![N, 1, D]⟩ ⟨2, ![E, 1]⟩ ⟨3, ![E, 1, D]⟩ [1, 2] [0] [] [0] [] 1 ![1, 1, D]) :
    GatherDims ⟨3, ![N, 1, D]⟩ ⟨2, ![E, 1]⟩ ⟨3, ![E, 1, D]⟩ where
  offsetDims := [1, 2]
  collapsedSliceDims := [0]
  operandBatchingDims := []
  startIndicesBatchingDims := []
  startIndexMap := [0]
  indexVectorDim := 1
  sliceSizes := ![1, 1, D]
  wf := wf

/-- The row gather of `[N, 1, D]` at `(e, 0, d)` is the operand at `(r, 0, d)`, `r` the start index `idx (e, 0)` read signed
    and clamped into `[0, N − 1]`. -/
theorem gather_rows3_apply {α : Type} {N D E w : Nat} (hN : 0 < N)
    (wf : GatherDims.WF ⟨3, ![N, 1, D]⟩ ⟨2, ![E, 1]⟩ ⟨3, ![E, 1, D]⟩ [1, 2] [0] [] [0] [] 1 ![1, 1, D])
    (x : (⟨3, ![N, 1, D]⟩ : Shape).Idx → α) (idx : IVec ⟨2, ![E, 1]⟩ w) (e : Fin E) (d : Fin D) :
    Host.gather (rows3Dims N D E wf) x idx (ix3 e (0 : Fin 1) d)
      = x (ix3 (⟨min (idx (ix2 e (0 : Fin 1))).toInt.toNat (N - 1), by omega⟩ : Fin N) (0 : Fin 1) d) := by
  -- axis 0: the clamped start index, no batch and no offset coordinate
  have h0 : (rows3Dims N D E wf).start (ix3 e (0 : Fin 1) d) idx (0 : Fin 3)
      + (rows3Dims N D E wf).batchCoord (ix3 e (0 : Fin 1) d) (0 : Fin 3)
      + (rows3Dims N D E wf).offCoord (ix3 e (0 : Fin 1) d) (0 : Fin 3)
      = min (idx (ix2 e (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3Dims N D E wf).startIndexMap from List.mem_singleton.mpr rfl)]
    have hsi : (rows3Dims N D E wf).siIdx (ix3 e (0 : Fin 1) d)
        ⟨List.idxOf (0 : Fin 3) (rows3Dims N D E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1: no start index, no batch coordinate, the result's own (unit) coordinate as the offset
  have h1 : (rows3Dims N D E wf).start (ix3 e (0 : Fin 1) d) idx (1 : Fin 3)
      + (rows3Dims N D E wf).batchCoord (ix3 e (0 : Fin 1) d) (1 : Fin 3)
      + (rows3Dims N D E wf).offCoord (ix3 e (0 : Fin 1) d) (1 : Fin 3) = 0 := by
    have hn : (1 : Fin 3) ∉ (rows3Dims N D E wf).startIndexMap :=
      show (1 : Fin 3) ∉ ([0] : List (Fin 3)) by decide
    have hk : (1 : Fin 3) ∈ (rows3Dims N D E wf).sKept :=
      (GatherDims.mem_sKept _ _).mpr ⟨show (1 : Fin 3) ∉ ([0] : List (Fin 3)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  -- axis 2: no start index, no batch coordinate, the result's own coordinate as the offset
  have h2 : (rows3Dims N D E wf).start (ix3 e (0 : Fin 1) d) idx (2 : Fin 3)
      + (rows3Dims N D E wf).batchCoord (ix3 e (0 : Fin 1) d) (2 : Fin 3)
      + (rows3Dims N D E wf).offCoord (ix3 e (0 : Fin 1) d) (2 : Fin 3) = d.val := by
    have hn : (2 : Fin 3) ∉ (rows3Dims N D E wf).startIndexMap :=
      show (2 : Fin 3) ∉ ([0] : List (Fin 3)) by decide
    have hk : (2 : Fin 3) ∈ (rows3Dims N D E wf).sKept :=
      (GatherDims.mem_sKept _ _).mpr ⟨show (2 : Fin 3) ∉ ([0] : List (Fin 3)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  unfold Host.gather
  congr 1
  funext a
  refine Fin.ext ?_
  match a with
  | ⟨0, _⟩ => exact h0
  | ⟨1, _⟩ => exact h1
  | ⟨2, _⟩ => exact h2

/-! ## Where an update lands, in general -/

/-- An update lands at `i` exactly when, on every operand axis, start plus window coordinate is `i`'s coordinate (as
    integers: the start is signed). -/
theorem resultIdx?_eq_some_iff {s si u : Shape} (dn : ScatterDims s si u) {w : Nat} (j : u.Idx) (idx : IVec si w)
    (i : s.Idx) :
    dn.resultIdx? j idx = some i ↔ ∀ a, dn.start j idx a + (dn.window j a : Int) = ((i a).val : Int) := by
  unfold ScatterDims.resultIdx?
  split
  · rename_i h
    constructor
    · intro heq a
      have hi := congrFun (Option.some.inj heq) a
      have hv : (dn.start j idx a + (dn.window j a : Int)).toNat = (i a).val := congrArg Fin.val hi
      have := (h a).1
      omega
    · intro hall
      congr 1
      funext a
      refine Fin.ext ?_
      show (dn.start j idx a + (dn.window j a : Int)).toNat = (i a).val
      have := hall a
      omega
  · rename_i h
    constructor
    · intro heq; cases heq
    · intro hall
      exfalso
      apply h
      intro a
      have := hall a
      have hlt := (i a).isLt
      omega

/-! ## The row scatter of `[N, D]` -/

/-- The dimension numbers of a row scatter: operand `[N, D]`, scatter indices `[E, 1]`, updates `[E, D]`; update window
    axis `1`, inserted window axis `0`, scatter axis `0` of the operand. -/
abbrev addDims2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- On axis `0` the start is the start index `idx (e, 0)` read signed. -/
theorem start2_zero {N D E w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (addDims2 N D E wf).start (ix2 e d') idx (0 : Fin 2) = (idx (ix2 e (0 : Fin 1))).toInt := by
  unfold ScatterDims.start
  rw [dif_pos (show (0 : Fin 2) ∈ (addDims2 N D E wf).scatterDimsToOperandDims from List.mem_singleton.mpr rfl)]
  have hsi : (addDims2 N D E wf).siIdx (ix2 e d')
      ⟨List.idxOf (0 : Fin 2) (addDims2 N D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis `1` the start is `0`. -/
theorem start2_one {N D E w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (addDims2 N D E wf).start (ix2 e d') idx (1 : Fin 2) = 0 := by
  unfold ScatterDims.start
  rw [dif_neg (show (1 : Fin 2) ∉ ([0] : List (Fin 2)) by decide)]

/-- On axis `0` (inserted) the window coordinate is `0`. -/
theorem window2_zero {N D E : Nat} (wf : ScatterDims.WF ⟨2, ![N, D]⟩ ⟨2, ![E, 1]⟩ ⟨2, ![E, D]⟩ [1] [0] [0] 1)
    (e : Fin E) (d' : Fin D) : (addDims2 N D E wf).window (ix2 e d') (0 : Fin 2) = 0 := by
  unfold ScatterDims.window
  rw [dif_neg (show (0 : Fin 2) ∉ (addDims2 N D E wf).sKept by
    simp [ScatterDims.sKept, Shape.kept])]

/-- On axis `1` the window coordinate is the update's own column. -/
theorem window2_one {N D E : Nat} (wf : ScatterDims.WF ⟨2, ![N, D]⟩ ⟨2, ![E, 1]⟩ ⟨2, ![E, D]⟩ [1] [0] [0] 1)
    (e : Fin E) (d' : Fin D) : (addDims2 N D E wf).window (ix2 e d') (1 : Fin 2) = d'.val := by
  unfold ScatterDims.window
  rw [dif_pos (show (1 : Fin 2) ∈ (addDims2 N D E wf).sKept by
    simp [ScatterDims.sKept, Shape.kept])]
  rfl

/-- Update `(e, d')` lands at `(n, d)` exactly when the start index read signed is `n` and `d' = d`. -/
theorem resultIdx2_iff {N D E w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) (n : Fin N) (d : Fin D) :
    (addDims2 N D E wf).resultIdx? (ix2 e d') idx = some (ix2 n d)
      ↔ (idx (ix2 e (0 : Fin 1))).toInt = (n.val : Int) ∧ d' = d := by
  rw [resultIdx?_eq_some_iff, Fin.forall_fin_two, start2_zero, start2_one, window2_zero, window2_one]
  show (idx (ix2 e (0 : Fin 1))).toInt + ((0 : Nat) : Int) = (n.val : Int) ∧ (0 : Int) + (d'.val : Int) = (d.val : Int) ↔ _
  rw [Fin.ext_iff]
  omega

/-! ## The row scatter of `[N, 1, D]` -/

/-- The dimension numbers of a row scatter with a unit middle axis: operand `[N, 1, D]`, scatter indices `[E, 1]`,
    updates `[E, 1, D]`; update window axes `1, 2`, inserted window axis `0`, scatter axis `0` of the operand. -/
abbrev addDims3 (N D E : Nat)
    (wf : ScatterDims.WF ⟨3, ![N, 1, D]⟩ ⟨2, ![E, 1]⟩ ⟨3, ![E, 1, D]⟩ [1, 2] [0] [0] 1) :
    ScatterDims ⟨3, ![N, 1, D]⟩ ⟨2, ![E, 1]⟩ ⟨3, ![E, 1, D]⟩ where
  updateWindowDims := [1, 2]
  insertedWindowDims := [0]
  scatterDimsToOperandDims := [0]
  indexVectorDim := 1
  wf := wf

/-- On axis `0` the start is the start index `idx (e, 0)` read signed. -/
theorem start3_zero {N D E w : Nat}
    (wf : ScatterDims.WF ⟨3, ![N, 1, D]⟩ ⟨2, ![E, 1]⟩ ⟨3, ![E, 1, D]⟩ [1, 2] [0] [0] 1)
    (idx : IVec ⟨2, ![E, 1]⟩ w) (e : Fin E) (d' : Fin D) :
    (addDims3 N D E wf).start (ix3 e (0 : Fin 1) d') idx (0 : Fin 3) = (idx (ix2 e (0 : Fin 1))).toInt := by
  unfold ScatterDims.start
  rw [dif_pos (show (0 : Fin 3) ∈ (addDims3 N D E wf).scatterDimsToOperandDims from List.mem_singleton.mpr rfl)]
  have hsi : (addDims3 N D E wf).siIdx (ix3 e (0 : Fin 1) d')
      ⟨List.idxOf (0 : Fin 3) (addDims3 N D E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On axis `1` the start is `0`. -/
theorem start3_one {N D E w : Nat}
    (wf : ScatterDims.WF ⟨3, ![N, 1, D]⟩ ⟨2, ![E, 1]⟩ ⟨3, ![E, 1, D]⟩ [1, 2] [0] [0] 1)
    (idx : IVec ⟨2, ![E, 1]⟩ w) (e : Fin E) (d' : Fin D) :
    (addDims3 N D E wf).start (ix3 e (0 : Fin 1) d') idx (1 : Fin 3) = 0 := by
  unfold ScatterDims.start
  rw [dif_neg (show (1 : Fin 3) ∉ ([0] : List (Fin 3)) by decide)]

/-- On axis `2` the start is `0`. -/
theorem start3_two {N D E w : Nat}
    (wf : ScatterDims.WF ⟨3, ![N, 1, D]⟩ ⟨2, ![E, 1]⟩ ⟨3, ![E, 1, D]⟩ [1, 2] [0] [0] 1)
    (idx : IVec ⟨2, ![E, 1]⟩ w) (e : Fin E) (d' : Fin D) :
    (addDims3 N D E wf).start (ix3 e (0 : Fin 1) d') idx (2 : Fin 3) = 0 := by
  unfold ScatterDims.start
  rw [dif_neg (show (2 : Fin 3) ∉ ([0] : List (Fin 3)) by decide)]

/-- On axis `0` (inserted) the window coordinate is `0`. -/
theorem window3_zero {N D E : Nat}
    (wf : ScatterDims.WF ⟨3, ![N, 1, D]⟩ ⟨2, ![E, 1]⟩ ⟨3, ![E, 1, D]⟩ [1, 2] [0] [0] 1)
    (e : Fin E) (d' : Fin D) : (addDims3 N D E wf).window (ix3 e (0 : Fin 1) d') (0 : Fin 3) = 0 := by
  unfold ScatterDims.window
  rw [dif_neg (show (0 : Fin 3) ∉ (addDims3 N D E wf).sKept by
    simp [ScatterDims.sKept, Shape.kept])]

/-- On axis `1` the window coordinate is the update's unit coordinate, `0`. -/
theorem window3_one {N D E : Nat}
    (wf : ScatterDims.WF ⟨3, ![N, 1, D]⟩ ⟨2, ![E, 1]⟩ ⟨3, ![E, 1, D]⟩ [1, 2] [0] [0] 1)
    (e : Fin E) (d' : Fin D) : (addDims3 N D E wf).window (ix3 e (0 : Fin 1) d') (1 : Fin 3) = 0 := by
  unfold ScatterDims.window
  rw [dif_pos (show (1 : Fin 3) ∈ (addDims3 N D E wf).sKept by
    simp [ScatterDims.sKept, Shape.kept])]
  rfl

/-- On axis `2` the window coordinate is the update's own column. -/
theorem window3_two {N D E : Nat}
    (wf : ScatterDims.WF ⟨3, ![N, 1, D]⟩ ⟨2, ![E, 1]⟩ ⟨3, ![E, 1, D]⟩ [1, 2] [0] [0] 1)
    (e : Fin E) (d' : Fin D) : (addDims3 N D E wf).window (ix3 e (0 : Fin 1) d') (2 : Fin 3) = d'.val := by
  unfold ScatterDims.window
  rw [dif_pos (show (2 : Fin 3) ∈ (addDims3 N D E wf).sKept by
    simp [ScatterDims.sKept, Shape.kept])]
  rfl

/-- Update `(e, 0, d')` lands at `(n, 0, d)` exactly when the start index read signed is `n` and `d' = d`. -/
theorem resultIdx3_iff {N D E w : Nat}
    (wf : ScatterDims.WF ⟨3, ![N, 1, D]⟩ ⟨2, ![E, 1]⟩ ⟨3, ![E, 1, D]⟩ [1, 2] [0] [0] 1)
    (idx : IVec ⟨2, ![E, 1]⟩ w) (e : Fin E) (d' : Fin D) (n : Fin N) (d : Fin D) :
    (addDims3 N D E wf).resultIdx? (ix3 e (0 : Fin 1) d') idx = some (ix3 n (0 : Fin 1) d)
      ↔ (idx (ix2 e (0 : Fin 1))).toInt = (n.val : Int) ∧ d' = d := by
  rw [resultIdx?_eq_some_iff, Fin.forall_fin_succ, Fin.forall_fin_two]
  show (addDims3 N D E wf).start (ix3 e (0 : Fin 1) d') idx (0 : Fin 3)
        + ((addDims3 N D E wf).window (ix3 e (0 : Fin 1) d') (0 : Fin 3) : Int) = (n.val : Int) ∧
      (addDims3 N D E wf).start (ix3 e (0 : Fin 1) d') idx (1 : Fin 3)
        + ((addDims3 N D E wf).window (ix3 e (0 : Fin 1) d') (1 : Fin 3) : Int) = ((0 : Nat) : Int) ∧
      (addDims3 N D E wf).start (ix3 e (0 : Fin 1) d') idx (2 : Fin 3)
        + ((addDims3 N D E wf).window (ix3 e (0 : Fin 1) d') (2 : Fin 3) : Int) = (d.val : Int) ↔ _
  rw [start3_zero, start3_one, start3_two, window3_zero, window3_one, window3_two, Fin.ext_iff]
  omega

/-! ## The bridge: the rank-3 scatter-add is the rank-2 one -/

/-- Forgetting the unit middle coordinate: the update index sets `[E, 1, D]` and `[E, D]` are in bijection. -/
def dropUnit (E D : Nat) : (⟨3, ![E, 1, D]⟩ : Shape).Idx ≃ (⟨2, ![E, D]⟩ : Shape).Idx where
  toFun j := ix2 (j 0) (j 2)
  invFun k := ix3 (k 0) (0 : Fin 1) (k 1)
  left_inv j := by
    have h1 : j 1 = (0 : Fin 1) := Subsingleton.elim (α := Fin 1) _ _
    have := eq_ix3 j
    rw [h1] at this
    exact this.symm
  right_inv k := (eq_ix2 k).symm

/-- THE BRIDGE. Operands that agree entry by entry (`x3 (n, 0, d) = x2 (n, d)`) and updates that agree entry by entry
    (`u3 (e, 0, d) = u2 (e, d)`), scatter-added by rows with the same column of start indices, agree entry by entry. -/
theorem scatterAdd_rows3_eq_rows2 {N D E w : Nat}
    (wf2 : ScatterDims.WF ⟨2, ![N, D]⟩ ⟨2, ![E, 1]⟩ ⟨2, ![E, D]⟩ [1] [0] [0] 1)
    (wf3 : ScatterDims.WF ⟨3, ![N, 1, D]⟩ ⟨2, ![E, 1]⟩ ⟨3, ![E, 1, D]⟩ [1, 2] [0] [0] 1)
    (x2 : (⟨2, ![N, D]⟩ : Shape).Idx → EReal) (x3 : (⟨3, ![N, 1, D]⟩ : Shape).Idx → EReal)
    (idx : IVec ⟨2, ![E, 1]⟩ w)
    (u2 : (⟨2, ![E, D]⟩ : Shape).Idx → EReal) (u3 : (⟨3, ![E, 1, D]⟩ : Shape).Idx → EReal)
    (hx : ∀ (n : Fin N) (d : Fin D), x3 (ix3 n (0 : Fin 1) d) = x2 (ix2 n d))
    (hu : ∀ (e : Fin E) (d : Fin D), u3 (ix3 e (0 : Fin 1) d) = u2 (ix2 e d))
    (n : Fin N) (d : Fin D) :
    Ideal.hostScatterAdd (addDims3 N D E wf3) x3 idx u3 (ix3 n (0 : Fin 1) d)
      = Ideal.hostScatterAdd (addDims2 N D E wf2) x2 idx u2 (ix2 n d) := by
  unfold Ideal.hostScatterAdd
  rw [hx]
  congr 1
  refine Finset.sum_equiv (dropUnit E D) ?_ ?_
  · intro j
    obtain ⟨e, d', rfl⟩ : ∃ (e : Fin E) (d' : Fin D), j = ix3 e (0 : Fin 1) d' :=
      ⟨j 0, j 2, ((dropUnit E D).left_inv j).symm⟩
    simp only [Finset.mem_filter, Finset.mem_univ, true_and]
    exact (resultIdx3_iff wf3 idx e d' n d).trans (resultIdx2_iff wf2 idx e d' n d).symm
  · intro j _
    obtain ⟨e, d', rfl⟩ : ∃ (e : Fin E) (d' : Fin D), j = ix3 e (0 : Fin 1) d' :=
      ⟨j 0, j 2, ((dropUnit E D).left_inv j).symm⟩
    exact hu e d'

end Cert.Lib.RowScatter
-- ==== Proof.LibGatherRows.lean ====
/-
  A gather of whole rows, and of single entries, by one start index per row of the index array, read at an index.

  `x[idx]` for a matrix `x : [N, D]` and an integer vector `idx : [E]` lowers to a gather whose start indices are the
  column `[E, 1]`: offset axis `1`, collapsed axis `0`, start index map `[0]`, index vector axis `1`, slice sizes
  `[1, D]`. Its element `(e, d)` is `x (r, d)` where `r` is the start index `idx (e, 0)` read as a signed integer and
  clamped into `[0, N − 1]`. The same with a vector `x : [N]` (no offset axis, slice sizes `[1]`): element `e` is `x r`
  for the SAME `r`. So two such gathers by one index array pick the same row, whatever the operands are.
-/
import Idealize.ShloMosaic.PureOps.ShapeOps
import Idealize.ShloMosaic.Lib.ValueIdx

namespace Cert.Lib.GatherRows

open Idealize.ShloMosaic Idealize.ShloMosaic.ValueIdx

variable {α : Type}

/-- The row a start index selects among `N`: the word read signed, negative values to `0`, clamped to `N − 1`. -/
def rowOf (N : Nat) (hN : 0 < N) {E w : Nat} (idx : IVec ⟨2, ![E, 1]⟩ w) (e : Fin E) : Fin N :=
  ⟨min (idx (ix2 e (0 : Fin 1))).toInt.toNat (N - 1), by omega⟩

/-- The dimension numbers of a row gather: operand `[N, D]`, start indices `[E, 1]`, result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of an entry gather: operand `[N]`, start indices `[E, 1]`, result `[E]`. -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A row gather at `(e, d)` is the operand at `(rowOf e, d)`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowsDims N D E wf) x idx (ix2 e d) = x (ix2 (rowOf N hN idx e) d) := by
  -- axis 0: the clamped start index, no batch and no offset coordinate
  have h0 : (rowsDims N D E wf).start (ix2 e d) idx (0 : Fin 2) + (rowsDims N D E wf).batchCoord (ix2 e d) (0 : Fin 2)
      + (rowsDims N D E wf).offCoord (ix2 e d) (0 : Fin 2) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e d) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1: no start index, no batch coordinate, the result's own coordinate as the offset
  have h1 : (rowsDims N D E wf).start (ix2 e d) idx (1 : Fin 2) + (rowsDims N D E wf).batchCoord (ix2 e d) (1 : Fin 2)
      + (rowsDims N D E wf).offCoord (ix2 e d) (1 : Fin 2) = d.val := by
    have hn : (1 : Fin 2) ∉ (rowsDims N D E wf).startIndexMap :=
      show (1 : Fin 2) ∉ ([0] : List (Fin 2)) by decide
    have hk : (1 : Fin 2) ∈ (rowsDims N D E wf).sKept :=
      (GatherDims.mem_sKept _ _).mpr ⟨show (1 : Fin 2) ∉ ([0] : List (Fin 2)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  unfold Host.gather
  congr 1
  funext a
  refine Fin.ext ?_
  match a with
  | ⟨0, _⟩ => exact h0
  | ⟨1, _⟩ => exact h1

/-- An entry gather at `e` is the operand at `rowOf e`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (rowOf N hN idx e)) := by
  have h0 : (entriesDims N E wf).start (ix1 e) idx (0 : Fin 1) + (entriesDims N E wf).batchCoord (ix1 e) (0 : Fin 1)
      + (entriesDims N E wf).offCoord (ix1 e) (0 : Fin 1) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N E wf).startIndexMap from List.mem_singleton.mpr rfl)]
    have hsi : (entriesDims N E wf).siIdx (ix1 e) ⟨List.idxOf (0 : Fin 1) (entriesDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

end Cert.Lib.GatherRows
-- ==== Proof.LibScaledBuckets.lean ====
/-
  Moving a per-node factor across the buckets of a row scatter-add.

  A graph convolution sums, for every node `n`, the rows of its in-neighbours, each weighted by
  `c (source) · c (n)` where `c` is the inverse square root of the degree. Since the second factor is the same for every
  edge that lands in bucket `n`, it may be taken out of the bucket's sum:

      (∑_{e lands at n} a_e) · c n = ∑_{e lands at n} a_e · c n .

  On the extended reals this is NOT true of an arbitrary factor (`⊤ · (1 + (-1)) = 0` while `⊤ + ⊥ = ⊥`), but it holds for a
  factor that is nonnegative and not `⊤`, whatever the summands are — infinite ones included. The degree factor is such a
  number: it is either `0` or the reciprocal square root of something that is at least one.

  `layer` states one message-passing layer in this form: the scatter-add, by destination, of rows gathered by source from
  an array whose rows were already multiplied by `c`, then multiplied by `c` of the destination, is the scatter-add of the
  gathered unscaled rows each multiplied by `c (source) · c (destination)`, the destination's factor read through a gather
  by the (wrapped, clamped) destination index.
-/
import Idealize.ShloMosaic.PureOps.Ideal
import Idealize.ShloMosaic.Lib.ValueIdx
import proofs.«144295_j66262755442783_2_alg».proof.Proof.LibRowScatter
import proofs.«144295_j66262755442783_2_alg».proof.Proof.LibGatherRows

open scoped BigOperators

namespace Cert.Gcn

open Idealize.ShloMosaic Idealize.ShloMosaic.ValueIdx Cert.Lib.RowScatter Cert.Lib.GatherRows

/-- A factor that may be moved across any finite sum of extended reals: nonnegative and not `+∞`. -/
def Scale (c : EReal) : Prop := 0 ≤ c ∧ c ≠ ⊤

theorem scale_zero : Scale 0 := ⟨le_refl 0, by simp⟩

/-- The reciprocal square root of an extended real that is at least one: `0` at `+∞`, `(√r)⁻¹` at a real `r ≥ 1`. -/
theorem scale_rsqrt {y : EReal} (hy : 1 ≤ y) : Scale (Ideal.rsqrt y) := by
  induction y using EReal.rec with
  | bot => exact absurd hy (not_le.mpr (by exact_mod_cast EReal.bot_lt_coe 1))
  | top => rw [Ideal.rsqrt_top]; exact scale_zero
  | coe r =>
    have hr : (1 : ℝ) ≤ r := by exact_mod_cast hy
    rw [Ideal.rsqrt_coe, if_neg (by linarith), if_neg (by linarith)]
    exact ⟨by exact_mod_cast inv_nonneg.mpr (Real.sqrt_nonneg r), EReal.coe_ne_top _⟩

/-- The degree factor: `0`, or the reciprocal square root of the degree raised to at least one. -/
theorem scale_select_rsqrt (b : BitVec 1) (y : EReal) :
    Scale (Scalar.select b (Ideal.rsqrt (max y 1)) 0) := by
  unfold Scalar.select
  split
  · exact scale_rsqrt (le_max_right y 1)
  · exact scale_zero

/-- Such a factor distributes over a finite sum, whatever the summands. -/
theorem sum_mul_scale {ι : Type} (s : Finset ι) (f : ι → EReal) {c : EReal} (hc : Scale c) :
    (∑ j ∈ s, f j) * c = ∑ j ∈ s, f j * c := by
  classical
  refine Finset.induction_on s ?_ ?_
  · rw [Finset.sum_empty, Finset.sum_empty, zero_mul]
  · intro a s ha ih
    rw [Finset.sum_insert ha, Finset.sum_insert ha, EReal.right_distrib_of_nonneg_of_ne_top hc.1 hc.2, ih]

/-- A row scatter-add into zeros, read at `(n, d)` and multiplied by the factor of node `n`, is the scatter-add of updates
    each of which is the old update times that factor — it is enough that this holds for the updates that land in row `n`. -/
theorem scatterAdd_rows_scale {N D E w : ℕ}
    (wf : ScatterDims.WF ⟨2, ![N, D]⟩ ⟨2, ![E, 1]⟩ ⟨2, ![E, D]⟩ [1] [0] [0] 1)
    (z : (⟨2, ![N, D]⟩ : Shape).Idx → EReal) (hz : ∀ i, z i = 0)
    (idx : IVec ⟨2, ![E, 1]⟩ w)
    (U U' : (⟨2, ![E, D]⟩ : Shape).Idx → EReal) (c : Fin N → EReal) (hc : ∀ n, Scale (c n))
    (hUU' : ∀ (e : Fin E) (d : Fin D) (n : Fin N), (idx (ix2 e (0 : Fin 1))).toInt = (n.val : Int) →
        U (ix2 e d) * c n = U' (ix2 e d))
    (n : Fin N) (d : Fin D) :
    Ideal.hostScatterAdd (addDims2 N D E wf) z idx U (ix2 n d) * c n
      = Ideal.hostScatterAdd (addDims2 N D E wf) z idx U' (ix2 n d) := by
  unfold Ideal.hostScatterAdd
  rw [hz, zero_add, zero_add, sum_mul_scale _ _ (hc n)]
  refine Finset.sum_congr rfl fun j hj => ?_
  obtain ⟨e, d', rfl⟩ : ∃ (e : Fin E) (d' : Fin D), j = ix2 e d' := ⟨j 0, j 1, eq_ix2 j⟩
  have h := (resultIdx2_iff wf idx e d' n d).mp (Finset.mem_filter.mp hj).2
  exact hUU' e d' n h.1

/-- ONE LAYER. `A` holds rows already multiplied by the factor (`A (n, d) = A' (n, d) · c n`); `M` holds the messages of the
    other arrangement, the gathered unscaled row times `c (source row) · c (destination row)`, the destination row being
    what a gather by the column `dstW` selects; `dstW` selects row `n` whenever the scatter index of the edge, read signed,
    is `n`. Then gathering `A` by source, scatter-adding by destination and multiplying row `n` by `c n` gives the
    scatter-add of `M`. -/
theorem layer {N D E : ℕ} (hN : 0 < N)
    (gwf : GatherDims.WF ⟨2, ![N, D]⟩ ⟨2, ![E, 1]⟩ ⟨2, ![E, D]⟩ [1] [0] [] [0] [] 1 ![1, D])
    (swf : ScatterDims.WF ⟨2, ![N, D]⟩ ⟨2, ![E, 1]⟩ ⟨2, ![E, D]⟩ [1] [0] [0] 1)
    (z : (⟨2, ![N, D]⟩ : Shape).Idx → EReal) (hz : ∀ i, z i = 0)
    (dst src dstW : IVec ⟨2, ![E, 1]⟩ 32)
    (hland : ∀ (e : Fin E) (n : Fin N), (dst (ix2 e (0 : Fin 1))).toInt = (n.val : Int) → rowOf N hN dstW e = n)
    (c : Fin N → EReal) (hc : ∀ n, Scale (c n))
    (A A' : (⟨2, ![N, D]⟩ : Shape).Idx → EReal) (hA : ∀ (n : Fin N) (d : Fin D), A (ix2 n d) = A' (ix2 n d) * c n)
    (M : (⟨2, ![E, D]⟩ : Shape).Idx → EReal)
    (hM : ∀ (e : Fin E) (d : Fin D), M (ix2 e d)
      = A' (ix2 (rowOf N hN src e) d) * (c (rowOf N hN src e) * c (rowOf N hN dstW e)))
    (n : Fin N) (d : Fin D) :
    Ideal.hostScatterAdd (addDims2 N D E swf) z dst (Host.gather (rowsDims N D E gwf) A src) (ix2 n d) * c n
      = Ideal.hostScatterAdd (addDims2 N D E swf) z dst M (ix2 n d) := by
  refine scatterAdd_rows_scale swf z hz dst _ M c hc (fun e d' n' h => ?_) n d
  rw [gather_rows_apply hN gwf A src e d', hA, hM, hland e n' h, mul_assoc]

/-- THE SAME for the host's scatter-add and gather as programs print them, with the dimension records variables that ARE
    the row scatter's and the row gather's, and the two programs' zero operands whatever arrays of zeros they are. -/
theorem layer_host {N D E : ℕ} (hN : 0 < N)
    (gwf : GatherDims.WF ⟨2, ![N, D]⟩ ⟨2, ![E, 1]⟩ ⟨2, ![E, D]⟩ [1] [0] [] [0] [] 1 ![1, D])
    (swf : ScatterDims.WF ⟨2, ![N, D]⟩ ⟨2, ![E, 1]⟩ ⟨2, ![E, D]⟩ [1] [0] [0] 1)
    (sd sd' : ScatterDims ⟨2, ![N, D]⟩ ⟨2, ![E, 1]⟩ ⟨2, ![E, D]⟩) (gd : GatherDims ⟨2, ![N, D]⟩ ⟨2, ![E, 1]⟩ ⟨2, ![E, D]⟩)
    (hsd : sd = addDims2 N D E swf) (hsd' : sd' = addDims2 N D E swf) (hgd : gd = rowsDims N D E gwf)
    (z z' : (⟨2, ![N, D]⟩ : Shape).Idx → EReal) (hz : ∀ i, z i = 0) (hz' : ∀ i, z' i = 0)
    (dst src dstW : IVec ⟨2, ![E, 1]⟩ 32)
    (hland : ∀ (e : Fin E) (n : Fin N), (dst (ix2 e (0 : Fin 1))).toInt = (n.val : Int) → rowOf N hN dstW e = n)
    (c : Fin N → EReal) (hc : ∀ n, Scale (c n))
    (A A' : (⟨2, ![N, D]⟩ : Shape).Idx → EReal) (hA : ∀ (n : Fin N) (d : Fin D), A (ix2 n d) = A' (ix2 n d) * c n)
    (M : (⟨2, ![E, D]⟩ : Shape).Idx → EReal)
    (hM : ∀ (e : Fin E) (d : Fin D), M (ix2 e d)
      = A' (ix2 (rowOf N hN src e) d) * (c (rowOf N hN src e) * c (rowOf N hN dstW e)))
    (n : Fin N) (d : Fin D) :
    Host.scatterAdd (F := Ideal) (φ := .f32) sd z dst (Host.gather gd A src) (ix2 n d) * c n
      = Host.scatterAdd (F := Ideal) (φ := .f32) sd' z' dst M (ix2 n d) := by
  subst hsd hsd' hgd
  have hzz : z' = z := funext fun i => (hz' i).trans (hz i).symm
  subst hzz
  exact layer hN gwf swf z' hz' dst src dstW hland c hc A A' hA M hM n d

end Cert.Gcn
-- ==== Proof.Bridge.lean ====
/-
  The reference program's result is the kernel program's, index by index.

  Write `c n` for the degree factor of node `n`, `s e` for the row the (wrapped, clamped) source index of edge `e` selects and
  say that edge `e` lands at `n` when its destination index, read signed and NOT clamped, is `n`. The reference computes, layer
  by layer,

      out (n, j) = ∑_{e lands at n} h (s e, j) · (c (s e) · c (t e)) + b j ,

  `t e` the row the wrapped, clamped destination index selects; the kernel program computes

      out (n, j) = c n · ∑_{e lands at n} (h (s e, j) · c (s e)) + b j .

  For an edge that lands at `n` the destination index is the nonnegative number `n`, which the wrap and the clamp leave
  alone: `t e = n`. And `c n` is `0` or the reciprocal square root of a number that is at least one, a nonnegative real, so
  it may be taken out of the bucket's sum (LibScaledBuckets). Two layers of this, with the clamp at zero and the second
  weights between them, give the claim; nothing is assumed of the features or weights, infinite entries included.
-/
import proofs.«144295_j66262755442783_2_alg».proof.Proof.RefRead
import proofs.«144295_j66262755442783_2_alg».proof.Proof.KernelValue
import proofs.«144295_j66262755442783_2_alg».proof.Proof.LibScaledBuckets
import proofs.«144295_j66262755442783_2_alg».proof.Proof.LibColumns
import Idealize.ShloMosaic.PureOps.Ideal.Laws
import Idealize.ShloMosaic.Lib.IdealHost
import Idealize.ShloMosaic.Lib.ValueLayout
import Idealize.ShloMosaic.Lib.Pipeline.Value

set_option maxRecDepth 16384

open scoped BigOperators

noncomputable section

namespace Cert.Gcn.Bridge

open Idealize.ShloMosaic Idealize.ShloMosaic.ValueIdx Cert.Lib.GatherRows Cert.Lib.RowScatter Cert.Gcn
open Cert.ReferenceIdeal

/-! ## Words: a destination index that is a node's number -/

/-- A word that reads, signed, as a natural number is not negative: the negative-index wrap leaves it alone. -/
theorem wrap_nonneg (d k : BitVec 32) (n : ℕ) (h : d.toInt = (n : Int)) :
    Scalar.select (IntOp.cmpi .slt d 0#32) k d = d := by
  have hs : d.slt 0#32 = false := by
    rw [BitVec.slt_eq_decide, h, BitVec.toInt_zero]
    exact decide_eq_false (by omega)
  show Scalar.select (BitVec.ofBool (d.slt 0#32)) k d = d
  rw [hs]
  exact select_zero k d

/-- A start index that reads, signed, as the node number `n` selects row `n`. -/
theorem rowOf_of_toInt {E : ℕ} (idx : IVec ⟨2, ![E, 1]⟩ 32) (e : Fin E) (n : Fin 100000)
    (h : (idx (ix2 e (0 : Fin 1))).toInt = (n.val : Int)) : rowOf 100000 (by decide) idx e = n := by
  apply Fin.ext
  show min (idx (ix2 e (0 : Fin 1))).toInt.toNat (100000 - 1) = n.val
  rw [h, Int.toNat_natCast]
  have := n.isLt
  omega

variable (x : FVec Ideal S100000x64 .f32) (ei : IVec S2x1600000 32) (w1 : FVec Ideal S64x48 .f32)
  (b1 : FVec Ideal S48 .f32) (w2 : FVec Ideal S48x32 .f32) (b2 : FVec Ideal S32 .f32)

/-- An edge whose scatter index is the node number `n` has the wrapped destination column select row `n`. -/
theorem land (e : Fin 1700000) (n : Fin 100000)
    (h : (Read.val_main_v44 (F := Ideal) ei (ix2 e (0 : Fin 1))).toInt = (n.val : Int)) :
    rowOf 100000 (by decide) (Read.val_main_v30 (F := Ideal) ei) e = n := by
  have hi44 : Read.idx_main_v44 (ix2 e (0 : Fin 1)) = ix1 e := funext fun a => Fin.ext (by match a with | ⟨0, _⟩ => rfl)
  have hi30 : Read.idx_main_v30 (ix2 e (0 : Fin 1)) = ix1 e := funext fun a => Fin.ext (by match a with | ⟨0, _⟩ => rfl)
  have h44 : Read.val_main_v44 (F := Ideal) ei (ix2 e (0 : Fin 1)) = Read.val_main_v6 (F := Ideal) ei (ix1 e) := by
    rw [Read.val_main_v44_apply, hi44]
  have h6 : (Read.val_main_v6 (F := Ideal) ei (ix1 e)).toInt = (n.val : Int) := by rw [← h44]; exact h
  have h30 : Read.val_main_v30 (F := Ideal) ei (ix2 e (0 : Fin 1)) = Read.val_main_v6 (F := Ideal) ei (ix1 e) := by
    rw [Read.val_main_v30_apply, hi30, Read.val_main_v29_apply, Read.val_main_v26_apply]
    exact wrap_nonneg _ _ n.val h6
  exact rowOf_of_toInt _ e n (by rw [h30]; exact h6)

/-! ## The degree factor -/

/-- The degree factor is nonnegative and finite at every node. -/
theorem dis_scale (i : S100000.Idx) : Scale (Read.val_main_v16 (F := Ideal) ei i) := by
  have h1 : Read.val_main_v13 (F := Ideal) i = 1 := (Read.val_main_v13_apply i).trans Ideal.ofBits_one_f32
  have h0 : Read.val_main_call0_v1 (F := Ideal) i = 0 := (Read.val_main_call0_v1_apply i).trans Ideal.ofBits_zero_f32
  rw [Read.val_main_v16_apply, Read.val_main_v15_apply, Read.val_main_v14_apply, h1, h0, Ideal.hostUnary_rsqrt_def,
    Ideal.maximumf_def]
  exact scale_select_rsqrt (Read.val_main_v12 (F := Ideal) ei i) (Read.val_main_v10 (F := Ideal) ei i)

/-- The degree column at `(n, 0)` is the degree factor of node `n`. -/
theorem disCol_apply (n : Fin 100000) :
    Cert.KernelIdeal.Host.disCol ei (ix2 n (0 : Fin 1)) = Read.val_main_v16 (F := Ideal) ei (ix1 n) := by
  unfold Cert.KernelIdeal.Host.disCol
  exact Cert.Lib.Columns.shapeCast_a_a1_apply _ _ n (0 : Fin 1)

/-! ## The first layer -/

theorem lidx17 (n : Fin 100000) (j : Fin 48) (k : Fin 64) : Read.lidx_main_v17 (ix2 n j) k = ix2 n k :=
  funext fun a => Fin.ext (by match a with | ⟨0, _⟩ => rfl | ⟨1, _⟩ => rfl)
theorem ridx17 (n : Fin 100000) (j : Fin 48) (k : Fin 64) : Read.ridx_main_v17 (ix2 n j) k = ix2 k j :=
  funext fun a => Fin.ext (by match a with | ⟨0, _⟩ => rfl | ⟨1, _⟩ => rfl)

/-- The first region's output is the reference's first product with each row scaled by the degree factor. -/
theorem scaled1 (n : Fin 100000) (d : Fin 48) :
    Cert.KernelIdeal.Region0.G1 x w1 (Cert.KernelIdeal.Host.disCol ei) (ix2 n d)
      = Read.val_main_v17 (F := Ideal) x w1 (ix2 n d) * Read.val_main_v16 (F := Ideal) ei (ix1 n) := by
  rw [Cert.KernelIdeal.Region0.G1_ix2, disCol_apply, Read.val_main_v17_apply]
  refine congrArg₂ (fun u v : EReal => u * v) (Finset.sum_congr rfl fun k _ => ?_) rfl
  rw [lidx17, ridx17]

/-- The reference's first messages: the gathered product row times the two degree factors. -/
theorem msg1 (e : Fin 1700000) (d : Fin 48) :
    Read.val_main_v42 (F := Ideal) x ei w1 (ix2 e d)
      = Read.val_main_v17 (F := Ideal) x w1 (ix2 (rowOf 100000 (by decide) (Read.val_main_v38 (F := Ideal) ei) e) d)
        * (Read.val_main_v16 (F := Ideal) ei (ix1 (rowOf 100000 (by decide) (Read.val_main_v38 (F := Ideal) ei) e))
          * Read.val_main_v16 (F := Ideal) ei (ix1 (rowOf 100000 (by decide) (Read.val_main_v30 (F := Ideal) ei) e))) := by
  have hi41 : Read.idx_main_v41 (ix2 e d) = ix2 e (0 : Fin 1) :=
    funext fun a => Fin.ext (by match a with | ⟨0, _⟩ => rfl | ⟨1, _⟩ => rfl)
  have hi40 : Read.idx_main_v40 (ix2 e (0 : Fin 1)) = ix1 e := funext fun a => Fin.ext (by match a with | ⟨0, _⟩ => rfl)
  have h2338 : Read.val_main_v23 (F := Ideal) ei = Read.val_main_v38 (F := Ideal) ei := rfl
  rw [Read.val_main_v42_apply, Read.val_main_v41_apply, hi41, Read.val_main_v40_apply, hi40, Read.val_main_v32_apply]
  refine congrArg₂ (fun u v : EReal => u * v) ?_ (congrArg₂ (fun u v : EReal => u * v) ?_ ?_)
  · exact gather_rows_apply (N := 100000) (D := 48) (E := 1700000) (by decide)
      gather_S100000x48_S1700000x1_S1700000x48_1_0_n_n_0_1_148.wf _ _ e d
  · rw [← h2338]
    exact gather_entries_apply (N := 100000) (E := 1700000) (by decide)
      gather_S100000_S1700000x1_S1700000_n_0_n_n_0_1_1.wf _ _ e
  · exact gather_entries_apply (N := 100000) (E := 1700000) (by decide)
      gather_S100000_S1700000x1_S1700000_n_0_n_n_0_1_1.wf _ _ e

theorem swf48 : ScatterDims.WF ⟨2, ![100000, 48]⟩ ⟨2, ![1700000, 1]⟩ ⟨2, ![1700000, 48]⟩ [1] [0] [0] 1 := scatter_S100000x48_S1700000x1_S1700000x48_1_0_0_1.wf
theorem gwf48 : GatherDims.WF ⟨2, ![100000, 48]⟩ ⟨2, ![1700000, 1]⟩ ⟨2, ![1700000, 48]⟩ [1] [0] [] [0] [] 1 ![1, 48] := gather_S100000x48_S1700000x1_S1700000x48_1_0_n_n_0_1_148.wf
theorem sd48K : Cert.KernelIdeal.scatter_S100000x48_S1700000x1_S1700000x48_1_0_0_1 = addDims2 100000 48 1700000 swf48 := rfl
theorem sd48R : scatter_S100000x48_S1700000x1_S1700000x48_1_0_0_1 = addDims2 100000 48 1700000 swf48 := rfl
theorem gd48K : Cert.KernelIdeal.gather_S100000x48_S1700000x1_S1700000x48_1_0_n_n_0_1_148 = rowsDims 100000 48 1700000 gwf48 := rfl

/-- LAYER ONE: the kernel program's aggregated rows, rescaled by the degree factor, are the reference's. -/
theorem layer1 (n : Fin 100000) (k : Fin 48) :
    Cert.KernelIdeal.Host.agg48 (Cert.KernelIdeal.Region0.G1 x w1 (Cert.KernelIdeal.Host.disCol ei)) ei (ix2 n k) * Read.val_main_v16 (F := Ideal) ei (ix1 n)
      = Read.val_main_v45 (F := Ideal) x ei w1 (ix2 n k) := by
  show Host.scatterAdd (F := Ideal) (φ := .f32) Cert.KernelIdeal.scatter_S100000x48_S1700000x1_S1700000x48_1_0_0_1
        (broadcastInDim Cert.KernelIdeal.S100000x48 ![] Cert.KernelIdeal.Gen.bcast_S_S100000x48
          (constant (F := Ideal) Cert.KernelIdeal.S_ .f32 0x00000000#32))
        (Read.val_main_v44 (F := Ideal) ei)
        (Host.gather Cert.KernelIdeal.gather_S100000x48_S1700000x1_S1700000x48_1_0_n_n_0_1_148 (Cert.KernelIdeal.Region0.G1 x w1 (Cert.KernelIdeal.Host.disCol ei)) (Read.val_main_v38 (F := Ideal) ei)) (ix2 n k)
      * Read.val_main_v16 (F := Ideal) ei (ix1 n)
    = Host.scatterAdd (F := Ideal) (φ := .f32) scatter_S100000x48_S1700000x1_S1700000x48_1_0_0_1 (Read.val_main_v43 (F := Ideal)) (Read.val_main_v44 (F := Ideal) ei)
        (Read.val_main_v42 (F := Ideal) x ei w1) (ix2 n k)
  exact layer_host (N := 100000) (D := 48) (E := 1700000) (by decide) gwf48 swf48
    Cert.KernelIdeal.scatter_S100000x48_S1700000x1_S1700000x48_1_0_0_1 scatter_S100000x48_S1700000x1_S1700000x48_1_0_0_1 Cert.KernelIdeal.gather_S100000x48_S1700000x1_S1700000x48_1_0_n_n_0_1_148 sd48K sd48R gd48K
    (broadcastInDim Cert.KernelIdeal.S100000x48 ![] Cert.KernelIdeal.Gen.bcast_S_S100000x48
      (constant (F := Ideal) Cert.KernelIdeal.S_ .f32 0x00000000#32))
    (Read.val_main_v43 (F := Ideal)) (fun _ => Ideal.ofBits_zero_f32) (fun _ => Ideal.ofBits_zero_f32)
    (Read.val_main_v44 (F := Ideal) ei) (Read.val_main_v38 (F := Ideal) ei) (Read.val_main_v30 (F := Ideal) ei)
    (land ei) (fun n => Read.val_main_v16 (F := Ideal) ei (ix1 n)) (fun n => dis_scale ei (ix1 n))
    (Cert.KernelIdeal.Region0.G1 x w1 (Cert.KernelIdeal.Host.disCol ei)) (Read.val_main_v17 (F := Ideal) x w1) (scaled1 x ei w1)
    (Read.val_main_v42 (F := Ideal) x ei w1) (msg1 x ei w1) n k

/-! ## The second layer -/

theorem lidx50 (n : Fin 100000) (j : Fin 32) (k : Fin 48) : Read.lidx_main_v50 (ix2 n j) k = ix2 n k :=
  funext fun a => Fin.ext (by match a with | ⟨0, _⟩ => rfl | ⟨1, _⟩ => rfl)
theorem ridx50 (n : Fin 100000) (j : Fin 32) (k : Fin 48) : Read.ridx_main_v50 (ix2 n j) k = ix2 k j :=
  funext fun a => Fin.ext (by match a with | ⟨0, _⟩ => rfl | ⟨1, _⟩ => rfl)

/-- The hidden rows agree: the rescaled aggregate plus the bias, clamped at zero. -/
theorem hidden_eq (n : Fin 100000) (k : Fin 48) :
    max (Cert.KernelIdeal.Host.agg48 (Cert.KernelIdeal.Region0.G1 x w1 (Cert.KernelIdeal.Host.disCol ei)) ei (ix2 n k) * Cert.KernelIdeal.Host.disCol ei (ix2 n (0 : Fin 1))
        + shapeCast Cert.KernelIdeal.S1x48 b1 Cert.KernelIdeal.Gen.shapeCasts_S48_S1x48 (ix2 (0 : Fin 1) k)) 0
      = Read.val_main_v49 (F := Ideal) x ei w1 b1 (ix2 n k) := by
  have hi47 : Read.idx_main_v47 (ix2 n k) = ix2 (0 : Fin 1) k :=
    funext fun a => Fin.ext (by match a with | ⟨0, _⟩ => rfl | ⟨1, _⟩ => rfl)
  have hi46 : Read.idx_main_v46 (ix2 (0 : Fin 1) k) = ix1 k := funext fun a => Fin.ext (by match a with | ⟨0, _⟩ => rfl)
  have hz : Read.val_main_call1_v0 (F := Ideal) (ix2 n k) = 0 :=
    (Read.val_main_call1_v0_apply _).trans Ideal.ofBits_zero_f32
  rw [Read.val_main_v49_apply, Read.val_main_v48_apply, Read.val_main_v47_apply, hi47, Read.val_main_v46_apply, hi46, hz,
    disCol_apply, layer1]
  refine congrArg (fun u : EReal => max (Read.val_main_v45 (F := Ideal) x ei w1 (ix2 n k) + u) 0) ?_
  exact shapeCast_a_1a_apply _ _ (0 : Fin 1) k

/-- The second region's output is the reference's second product with each row scaled by the degree factor. -/
theorem scaled2 (n : Fin 100000) (d : Fin 32) :
    Cert.KernelIdeal.Host.g2Of x ei w1 b1 w2 (ix2 n d)
      = Read.val_main_v50 (F := Ideal) x ei w1 b1 w2 (ix2 n d) * Read.val_main_v16 (F := Ideal) ei (ix1 n) := by
  unfold Cert.KernelIdeal.Host.g2Of
  rw [Cert.KernelIdeal.Region1.G2_ix2, Read.val_main_v50_apply]
  refine congrArg₂ (fun u v : EReal => u * v) (Finset.sum_congr rfl fun k _ => ?_) (disCol_apply ei n)
  rw [lidx50, ridx50, hidden_eq]

/-- The reference's second messages. -/
theorem msg2 (e : Fin 1700000) (d : Fin 32) :
    Read.val_main_v75 (F := Ideal) x ei w1 b1 w2 (ix2 e d)
      = Read.val_main_v50 (F := Ideal) x ei w1 b1 w2 (ix2 (rowOf 100000 (by decide) (Read.val_main_v71 (F := Ideal) ei) e) d)
        * (Read.val_main_v16 (F := Ideal) ei (ix1 (rowOf 100000 (by decide) (Read.val_main_v71 (F := Ideal) ei) e))
          * Read.val_main_v16 (F := Ideal) ei (ix1 (rowOf 100000 (by decide) (Read.val_main_v30 (F := Ideal) ei) e))) := by
  have hi74 : Read.idx_main_v74 (ix2 e d) = ix2 e (0 : Fin 1) :=
    funext fun a => Fin.ext (by match a with | ⟨0, _⟩ => rfl | ⟨1, _⟩ => rfl)
  have hi73 : Read.idx_main_v73 (ix2 e (0 : Fin 1)) = ix1 e := funext fun a => Fin.ext (by match a with | ⟨0, _⟩ => rfl)
  have h5671 : Read.val_main_v56 (F := Ideal) ei = Read.val_main_v71 (F := Ideal) ei := rfl
  have h6330 : Read.val_main_v63 (F := Ideal) ei = Read.val_main_v30 (F := Ideal) ei := rfl
  rw [Read.val_main_v75_apply, Read.val_main_v74_apply, hi74, Read.val_main_v73_apply, hi73, Read.val_main_v65_apply]
  refine congrArg₂ (fun u v : EReal => u * v) ?_ (congrArg₂ (fun u v : EReal => u * v) ?_ ?_)
  · exact gather_rows_apply (N := 100000) (D := 32) (E := 1700000) (by decide)
      gather_S100000x32_S1700000x1_S1700000x32_1_0_n_n_0_1_132.wf _ _ e d
  · rw [← h5671]
    exact gather_entries_apply (N := 100000) (E := 1700000) (by decide)
      gather_S100000_S1700000x1_S1700000_n_0_n_n_0_1_1.wf _ _ e
  · rw [← h6330]
    exact gather_entries_apply (N := 100000) (E := 1700000) (by decide)
      gather_S100000_S1700000x1_S1700000_n_0_n_n_0_1_1.wf _ _ e

theorem swf32 : ScatterDims.WF ⟨2, ![100000, 32]⟩ ⟨2, ![1700000, 1]⟩ ⟨2, ![1700000, 32]⟩ [1] [0] [0] 1 := scatter_S100000x32_S1700000x1_S1700000x32_1_0_0_1.wf
theorem gwf32 : GatherDims.WF ⟨2, ![100000, 32]⟩ ⟨2, ![1700000, 1]⟩ ⟨2, ![1700000, 32]⟩ [1] [0] [] [0] [] 1 ![1, 32] := gather_S100000x32_S1700000x1_S1700000x32_1_0_n_n_0_1_132.wf
theorem sd32K : Cert.KernelIdeal.scatter_S100000x32_S1700000x1_S1700000x32_1_0_0_1 = addDims2 100000 32 1700000 swf32 := rfl
theorem sd32R : scatter_S100000x32_S1700000x1_S1700000x32_1_0_0_1 = addDims2 100000 32 1700000 swf32 := rfl
theorem gd32K : Cert.KernelIdeal.gather_S100000x32_S1700000x1_S1700000x32_1_0_n_n_0_1_132 = rowsDims 100000 32 1700000 gwf32 := rfl

/-- LAYER TWO: the kernel program's aggregated rows, rescaled by the degree factor, are the reference's. -/
theorem layer2 (n : Fin 100000) (j : Fin 32) :
    Cert.KernelIdeal.Host.agg32 (Cert.KernelIdeal.Host.g2Of x ei w1 b1 w2) ei (ix2 n j) * Read.val_main_v16 (F := Ideal) ei (ix1 n)
      = Read.val_main_v78 (F := Ideal) x ei w1 b1 w2 (ix2 n j) := by
  show Host.scatterAdd (F := Ideal) (φ := .f32) Cert.KernelIdeal.scatter_S100000x32_S1700000x1_S1700000x32_1_0_0_1
        (broadcastInDim Cert.KernelIdeal.S100000x32 ![] Cert.KernelIdeal.Gen.bcast_S_S100000x32
          (constant (F := Ideal) Cert.KernelIdeal.S_ .f32 0x00000000#32))
        (Read.val_main_v77 (F := Ideal) ei)
        (Host.gather Cert.KernelIdeal.gather_S100000x32_S1700000x1_S1700000x32_1_0_n_n_0_1_132 (Cert.KernelIdeal.Host.g2Of x ei w1 b1 w2) (Read.val_main_v71 (F := Ideal) ei)) (ix2 n j)
      * Read.val_main_v16 (F := Ideal) ei (ix1 n)
    = Host.scatterAdd (F := Ideal) (φ := .f32) scatter_S100000x32_S1700000x1_S1700000x32_1_0_0_1 (Read.val_main_v76 (F := Ideal)) (Read.val_main_v77 (F := Ideal) ei)
        (Read.val_main_v75 (F := Ideal) x ei w1 b1 w2) (ix2 n j)
  exact layer_host (N := 100000) (D := 32) (E := 1700000) (by decide) gwf32 swf32
    Cert.KernelIdeal.scatter_S100000x32_S1700000x1_S1700000x32_1_0_0_1 scatter_S100000x32_S1700000x1_S1700000x32_1_0_0_1 Cert.KernelIdeal.gather_S100000x32_S1700000x1_S1700000x32_1_0_n_n_0_1_132 sd32K sd32R gd32K
    (broadcastInDim Cert.KernelIdeal.S100000x32 ![] Cert.KernelIdeal.Gen.bcast_S_S100000x32
      (constant (F := Ideal) Cert.KernelIdeal.S_ .f32 0x00000000#32))
    (Read.val_main_v76 (F := Ideal)) (fun _ => Ideal.ofBits_zero_f32) (fun _ => Ideal.ofBits_zero_f32)
    (Read.val_main_v77 (F := Ideal) ei) (Read.val_main_v71 (F := Ideal) ei) (Read.val_main_v30 (F := Ideal) ei)
    (land ei) (fun n => Read.val_main_v16 (F := Ideal) ei (ix1 n)) (fun n => dis_scale ei (ix1 n))
    (Cert.KernelIdeal.Host.g2Of x ei w1 b1 w2) (Read.val_main_v50 (F := Ideal) x ei w1 b1 w2) (scaled2 x ei w1 b1 w2)
    (Read.val_main_v75 (F := Ideal) x ei w1 b1 w2) (msg2 x ei w1 b1 w2) n j

/-! ## The results -/

/-- The last stretch at an index, over whatever arrays it is given: the degree column's broadcast times the aggregated
    rows, plus the bias's broadcast. -/
theorem outT_apply (a2 : FVec Ideal Cert.KernelIdeal.S100000x32 .f32) (d2 : FVec Ideal Cert.KernelIdeal.S100000x1 .f32)
    (b : FVec Ideal Cert.KernelIdeal.S32 .f32) (i : Cert.KernelIdeal.S100000x32.Idx) :
    Cert.KernelIdeal.Host.outT a2 d2 b i
      = broadcastInDim Cert.KernelIdeal.S100000x32 ![0, 1] Cert.KernelIdeal.Gen.bcast_S100000x1_S100000x32_0_1 d2 i * a2 i
        + broadcastInDim Cert.KernelIdeal.S100000x32 ![0, 1] Cert.KernelIdeal.Gen.bcast_S1x32_S100000x32_0_1
            (broadcastInDim Cert.KernelIdeal.S1x32 ![1] Cert.KernelIdeal.Gen.bcast_S32_S1x32_1 b) i := rfl

/-- The kernel program's result is the last stretch of the second aggregation. -/
theorem result_unfold :
    Cert.KernelIdeal.Host.result x ei w1 b1 w2 b2 = Cert.KernelIdeal.Host.outT (Cert.KernelIdeal.Host.agg32 (Cert.KernelIdeal.Host.g2Of x ei w1 b1 w2) ei) (Cert.KernelIdeal.Host.disCol ei) b2 := rfl

/-- The kernel program's result at an index. -/
theorem result_apply (i : Cert.KernelIdeal.S100000x32.Idx) :
    Cert.KernelIdeal.Host.result x ei w1 b1 w2 b2 i
      = broadcastInDim Cert.KernelIdeal.S100000x32 ![0, 1] Cert.KernelIdeal.Gen.bcast_S100000x1_S100000x32_0_1
          (Cert.KernelIdeal.Host.disCol ei) i * Cert.KernelIdeal.Host.agg32 (Cert.KernelIdeal.Host.g2Of x ei w1 b1 w2) ei i
        + broadcastInDim Cert.KernelIdeal.S100000x32 ![0, 1] Cert.KernelIdeal.Gen.bcast_S1x32_S100000x32_0_1
            (broadcastInDim Cert.KernelIdeal.S1x32 ![1] Cert.KernelIdeal.Gen.bcast_S32_S1x32_1 b2) i :=
  (congrFun (result_unfold x ei w1 b1 w2 b2) i).trans (outT_apply _ _ _ i)

/-- The two programs broadcast the second bias by the same two operations. -/
theorem bias2_eq : Read.val_main_v80 (F := Ideal) b2
    = broadcastInDim Cert.KernelIdeal.S100000x32 ![0, 1] Cert.KernelIdeal.Gen.bcast_S1x32_S100000x32_0_1
        (broadcastInDim Cert.KernelIdeal.S1x32 ![1] Cert.KernelIdeal.Gen.bcast_S32_S1x32_1 b2) := rfl

/-- The degree column broadcast along the 32 output columns reads the column's entry of the row. -/
theorem disRow_apply (n : Fin 100000) (j : Fin 32) :
    broadcastInDim Cert.KernelIdeal.S100000x32 ![0, 1] Cert.KernelIdeal.Gen.bcast_S100000x1_S100000x32_0_1
      (Cert.KernelIdeal.Host.disCol ei) (ix2 n j) = Cert.KernelIdeal.Host.disCol ei (ix2 n (0 : Fin 1)) :=
  broadcastInDim_apply _ Cert.KernelIdeal.Gen.bcast_S100000x1_S100000x32_0_1 (Cert.KernelIdeal.Host.disCol ei) (ix2 n j) (ix2 n (0 : Fin 1))
    (fun a => match a with
      | ⟨0, _⟩ => by show n.val = if (100000 : Nat) = 1 then 0 else n.val; rw [if_neg (by decide)]
      | ⟨1, _⟩ => by show 0 = if (1 : Nat) = 1 then 0 else j.val; rw [if_pos rfl])

/-- THE REFERENCE'S RESULT IS THE KERNEL PROGRAM'S. -/
theorem result_eq :
    Read.val_main_v81 (F := Ideal) x ei w1 b1 w2 b2 = Cert.KernelIdeal.Host.result x ei w1 b1 w2 b2 := by
  funext i
  obtain ⟨n, j, rfl⟩ : ∃ (n : Fin 100000) (j : Fin 32), i = ix2 n j := ⟨i 0, i 1, eq_ix2 i⟩
  rw [Read.val_main_v81_apply, result_apply, Ideal.addf_def, bias2_eq, disRow_apply, disCol_apply, mul_comm, layer2]

end Cert.Gcn.Bridge

end
-- ==== Proof.lean ====
/-
  A two-layer graph convolution: the kernel program against its reference, on the extended reals.

  Both programs build the edge lists with self loops and the degree factor `c = deg^(-1/2)` (zero at degree zero) by the same
  host operations. The reference multiplies every message by `c (source) · c (destination)` and scatter-adds; the kernel
  program scales the rows by `c` before the gather (inside its two matrix-product kernels) and scales the scatter-added rows
  by `c` afterwards. The two agree because `c` is a nonnegative real number, which distributes over any sum of extended
  reals, and because an edge that lands in bucket `n` has destination index exactly `n` (Proof/Bridge.lean). The kernel
  program's result as a term of its arguments is read off its run (Proof/KernelRun.lean, Proof/KernelValue.lean: the two
  regions' output arrays as whole-array functions, Proof/Blocks0.lean and Proof/Blocks1.lean, over the bodies read at an
  index, Proof/Payloads.lean); the reference's is its generated run.
-/
import proofs.«144295_j66262755442783_2_alg».proof.Defs
import proofs.«144295_j66262755442783_2_alg».proof.Proof.Gen.Kernel
import proofs.«144295_j66262755442783_2_alg».proof.Proof.Gen.Kernel.Skeleton
import proofs.«144295_j66262755442783_2_alg».proof.Proof.Gen.Kernel.Launch
import proofs.«144295_j66262755442783_2_alg».proof.Proof.Gen.Kernel.Points
import proofs.«144295_j66262755442783_2_alg».proof.Proof.Gen.Kernel.Frame
import proofs.«144295_j66262755442783_2_alg».proof.Proof.Gen.KernelIdeal
import proofs.«144295_j66262755442783_2_alg».proof.Proof.Gen.KernelIdeal.Skeleton
import proofs.«144295_j66262755442783_2_alg».proof.Proof.Gen.KernelIdeal.Launch
import proofs.«144295_j66262755442783_2_alg».proof.Proof.Gen.KernelIdeal.Points
import proofs.«144295_j66262755442783_2_alg».proof.Proof.Gen.KernelIdeal.Frame
import proofs.«144295_j66262755442783_2_alg».proof.Proof.Gen.ReferenceIdeal
import proofs.«144295_j66262755442783_2_alg».proof.Proof.RefRun
import proofs.«144295_j66262755442783_2_alg».proof.Proof.RefRead
import proofs.«144295_j66262755442783_2_alg».proof.Proof.Gen.Pre_finite_inputs
import proofs.«144295_j66262755442783_2_alg».proof.Proof.KernelRun
import proofs.«144295_j66262755442783_2_alg».proof.Proof.KernelValue
import proofs.«144295_j66262755442783_2_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The kernel program's run ends with its result term of the arguments (its run with the result named, and the result
    buffer read back to the launch memory); the reference's generated run ends with its own term of arguments that
    agree; the two terms are one function (`Bridge.result_eq`). -/
theorem algebraic : Cert.algebraic_KernelIdeal_ReferenceIdeal := by
  intro m ρ m' ρ' _ hagree
  refine ⟨fun c => Cert.KernelIdeal.Host.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Host.W7_v45 m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v81_eq, (hagree c).1, (hagree c).2.1, (hagree c).2.2.1, (hagree c).2.2.2.1,
      (hagree c).2.2.2.2.1, (hagree c).2.2.2.2.2]
    exact Cert.Gcn.Bridge.result_eq _ _ _ _ _ _

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
